-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x6144 : Shape := ⟨2, ![8192, 6144]⟩
abbrev S128 : Shape := ⟨1, ![128]⟩
abbrev S1x1x1x128 : Shape := ⟨4, ![1, 1, 1, 128]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S128 : S_.BroadcastsInDim S128 (![] : Fin 0 → Fin S128.rank)
  reducesTo_S128_S_d0 : S128.ReducesTo [0] S_
  bcast_S_S1x1x1x128 : S_.BroadcastsInDim S1x1x1x128 (![] : Fin 0 → Fin S1x1x1x128.rank)
  reducesTo_S1x1x1x128_S_d0_1_2_3 : S1x1x1x128.ReducesTo [0, 1, 2, 3] S_

variable [Facts]

def fn_part1 {F : FTy → Type} [FloatOps F] (main_arg4 : FVec F S128 .f32) (main_arg5 : FVec F S1x1x1x128 .f32) (main_arg6 : FVec F S1x1x1x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x1x1x128 .f32 := Host.absf main_arg5
  let main_cst_8 : FVec F S_ .f32 := constant S_ .f32 0x7F800000#32
  let main_v25 : FVec F S1x1x1x128 .f32 := broadcastInDim S1x1x1x128 ![] bcast_S_S1x1x1x128 main_cst_8
  let main_v26 : IVec S1x1x1x128 1 := cmpf .olt main_v24 main_v25
  let main_c_9 : IVec S_ 1 := constantI S_ 1 1#1
  let main_v27 : IVec S_ 1 := (fun x v => Host.reduce IntOp.andi x v reducesTo_S1x1x1x128_S_d0_1_2_3 h_S_) main_v26 main_c_9
  let main_v28 : IVec S_ 1 := andi main_v23 main_v27
  let main_v29 : FVec F S1x1x1x128 .f32 := Host.absf main_arg6
  let main_cst_10 : FVec F S_ .f32 := constant S_ .f32 0x7F800000#32
  let main_v30 : FVec F S1x1x1x128 .f32 := broadcastInDim S1x1x1x128 ![] bcast_S_S1x1x1x128 main_cst_10
  let main_v31 : IVec S1x1x1x128 1 := cmpf .olt main_v29 main_v30
  let main_c_11 : IVec S_ 1 := constantI S_ 1 1#1
  let main_v32 : IVec S_ 1 := (fun x v => Host.reduce IntOp.andi x v reducesTo_S1x1x1x128_S_d0_1_2_3 h_S_) main_v31 main_c_11
  let main_v33 : IVec S_ 1 := andi main_v28 main_v32
  main_v33

def fn {F : FTy → Type} [FloatOps F] (main_arg0 : FVec F S8192x6144 .f32) (main_arg1 : FVec F S128 .f32) (main_arg2 : FVec F S128 .f32) (main_arg3 : FVec F S128 .f32) (main_arg4 : FVec F S128 .f32) (main_arg5 : FVec F S1x1x1x128 .f32) (main_arg6 : FVec F S1x1x1x128 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S8192x6144 : Shape := ⟨2, ![8192, 6144]⟩
abbrev S128 : Shape := ⟨1, ![128]⟩
abbrev S1x1x1x128 : Shape := ⟨4, ![1, 1, 1, 128]⟩
abbrev S1x128 : Shape := ⟨2, ![1, 128]⟩
abbrev S1x8192x32x128 : Shape := ⟨4, ![1, 8192, 32, 128]⟩
abbrev S1x8192x8x128 : Shape := ⟨4, ![1, 8192, 8, 128]⟩
abbrev S8192x1024 : Shape := ⟨2, ![8192, 1024]⟩
abbrev S128x6144 : Shape := ⟨2, ![128, 6144]⟩
abbrev S1x128x32x128 : Shape := ⟨4, ![1, 128, 32, 128]⟩
abbrev S1x128x8x128 : Shape := ⟨4, ![1, 128, 8, 128]⟩
abbrev S128x1024 : Shape := ⟨2, ![128, 1024]⟩
abbrev S128x4096 : Shape := ⟨2, ![128, 4096]⟩
abbrev S128x32x128 : Shape := ⟨3, ![128, 32, 128]⟩
abbrev S128x8x128 : Shape := ⟨3, ![128, 8, 128]⟩
abbrev S128x32 : Shape := ⟨2, ![128, 32]⟩
abbrev S128x32x1 : Shape := ⟨3, ![128, 32, 1]⟩
abbrev S1x1x128 : Shape := ⟨3, ![1, 1, 128]⟩
abbrev S128x8 : Shape := ⟨2, ![128, 8]⟩
abbrev S128x8x1 : Shape := ⟨3, ![128, 8, 1]⟩
abbrev S128x32x64 : Shape := ⟨3, ![128, 32, 64]⟩
abbrev S128x8x64 : Shape := ⟨3, ![128, 8, 64]⟩

abbrev nBuf : Space → Nat
  | .hbm => 16
  | .vmem => 14
  | .smem => 0
  | _ => 0

abbrev bufTy : (tb : Table) → Fin (tcTables nBuf tb) → BufTy
  | .hbm, ⟨0, _⟩ => ⟨S8192x6144, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1x1x1x128, .f32⟩
  | .hbm, ⟨6, _⟩ => ⟨S1x1x1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x8192x32x128, .f32⟩
  | .hbm, ⟨14, _⟩ => ⟨S1x8192x8x128, .f32⟩
  | .hbm, ⟨15, _⟩ => ⟨S8192x1024, .f32⟩
  | .local _ .vmem, ⟨0, _⟩ => ⟨S128x6144, .f32⟩
  | .local _ .vmem, ⟨1, _⟩ => ⟨S128x6144, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128x32x128, .f32⟩
  | .local _ .vmem, ⟨9, _⟩ => ⟨S1x128x32x128, .f32⟩
  | .local _ .vmem, ⟨10, _⟩ => ⟨S1x128x8x128, .f32⟩
  | .local _ .vmem, ⟨11, _⟩ => ⟨S1x128x8x128, .f32⟩
  | .local _ .vmem, ⟨12, _⟩ => ⟨S128x1024, .f32⟩
  | .local _ .vmem, ⟨13, _⟩ => ⟨S128x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128_S1x128 : S128.ShapeCasts S1x128
  shapeCasts_S1x1x1x128_S1x128 : S1x1x1x128.ShapeCasts S1x128
  inb_S128x6144_S128x6144_0_0 : ∀ a, (![0, 0] : Fin 2 → Nat) a + S128x6144.size a ≤ S128x6144.size a
  h_S128x6144 : 0 < S128x6144.numel
  slices_S128x6144_o0_0_S128x4096 : S128x6144.Slices ![0, 0] S128x4096
  slices_S128x6144_o0_4096_S128x1024 : S128x6144.Slices ![0, 4096] S128x1024
  slices_S128x6144_o0_5120_S128x1024 : S128x6144.Slices ![0, 5120] S128x1024
  shapeCasts_S128x4096_S128x32x128 : S128x4096.ShapeCasts S128x32x128
  shapeCasts_S128x1024_S128x8x128 : S128x1024.ShapeCasts S128x8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S128x32x128_S128x32 : S128x32x128.Reduces [2] S128x32
  shapeCasts_S128x32_S128x32x1 : S128x32.ShapeCasts S128x32x1
  broadcasts_S128x32x1_S128x32x128 : S128x32x1.Broadcasts S128x32x128
  shapeCasts_S1x128_S1x1x128 : S1x128.ShapeCasts S1x1x128
  broadcasts_S1x1x128_S128x32x128 : S1x1x128.Broadcasts S128x32x128
  reduces_S128x8x128_S128x8 : S128x8x128.Reduces [2] S128x8
  shapeCasts_S128x8_S128x8x1 : S128x8.ShapeCasts S128x8x1
  broadcasts_S128x8x1_S128x8x128 : S128x8x1.Broadcasts S128x8x128
  broadcasts_S1x1x128_S128x8x128 : S1x1x128.Broadcasts S128x8x128
  slices_S128x32x128_o0_0_0_S128x32x64 : S128x32x128.Slices ![0, 0, 0] S128x32x64
  slices_S128x32x128_o0_0_64_S128x32x64 : S128x32x128.Slices ![0, 0, 64] S128x32x64
  concatenates_S128x32x64_S128x32x64_S128x32x128_d2 : Shape.Concatenates [S128x32x64, S128x32x64] S128x32x128 2
  slices_S128x8x128_o0_0_0_S128x8x64 : S128x8x128.Slices ![0, 0, 0] S128x8x64
  slices_S128x8x128_o0_0_64_S128x8x64 : S128x8x128.Slices ![0, 0, 64] S128x8x64
  concatenates_S128x8x64_S128x8x64_S128x8x128_d2 : Shape.Concatenates [S128x8x64, S128x8x64] S128x8x128 2
  shapeCasts_S128x32x128_S1x128x32x128 : S128x32x128.ShapeCasts S1x128x32x128
  inb_S1x128x32x128_S1x128x32x128_0_0_0_0 : ∀ a, (![0, 0, 0, 0] : Fin 4 → Nat) a + S1x128x32x128.size a ≤ S1x128x32x128.size a
  h_S1x128x32x128 : 0 < S1x128x32x128.numel
  shapeCasts_S128x8x128_S1x128x8x128 : S128x8x128.ShapeCasts S1x128x8x128
  inb_S1x128x8x128_S1x128x8x128_0_0_0_0 : ∀ a, (![0, 0, 0, 0] : Fin 4 → Nat) a + S1x128x8x128.size a ≤ S1x128x8x128.size a
  h_S1x128x8x128 : 0 < S1x128x8x128.numel
  inb_S128x1024_S128x1024_0_0 : ∀ a, (![0, 0] : Fin 2 → Nat) a + S128x1024.size a ≤ S128x1024.size a
  h_S128x1024 : 0 < S128x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x6144.size a ≤ S8192x6144.size a
  hwx0_0 : ∀ i : grid0.Coords, EltTy.bits .f32 = 32 ∨ (Rect.block (s := S8192x6144) S128x6144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x32x128.size a ≤ S1x8192x32x128.size a
  hwx0_7 : ∀ i : grid0.Coords, EltTy.bits .f32 = 32 ∨ (Rect.block (s := S1x8192x32x128) S1x128x32x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x8x128.size a ≤ S1x8192x8x128.size a
  hwx0_8 : ∀ i : grid0.Coords, EltTy.bits .f32 = 32 ∨ (Rect.block (s := S1x8192x8x128) S1x128x8x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S8192x1024.size a
  hwx0_9 : ∀ i : grid0.Coords, EltTy.bits .f32 = 32 ∨ (Rect.block (s := S8192x1024) S128x1024.size (cc0_transform_9 i) (hinb0_9 i)).WholeWords (EltTy.packing .f32)

variable [Facts₀]

abbrev win0_0 : Pipeline.Window sig grid0 :=
  Pipeline.Window.ofSpec (Memref.whole main_arg0) S128x6144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x128x32x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x128x8x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x6144 : Shape := ⟨2, ![8192, 6144]⟩
abbrev S128 : Shape := ⟨1, ![128]⟩
abbrev S1x1x1x128 : Shape := ⟨4, ![1, 1, 1, 128]⟩
abbrev S8192x4096 : Shape := ⟨2, ![8192, 4096]⟩
abbrev S8192x1024 : Shape := ⟨2, ![8192, 1024]⟩
abbrev S1x8192x32x128 : Shape := ⟨4, ![1, 8192, 32, 128]⟩
abbrev S1x8192x8x128 : Shape := ⟨4, ![1, 8192, 8, 128]⟩
abbrev S_ : Shape := ⟨0, ![]⟩
abbrev S1x8192x32 : Shape := ⟨3, ![1, 8192, 32]⟩
abbrev S1x8192x32x1 : Shape := ⟨4, ![1, 8192, 32, 1]⟩
abbrev S1x8192x8 : Shape := ⟨3, ![1, 8192, 8]⟩
abbrev S1x8192x8x1 : Shape := ⟨4, ![1, 8192, 8, 1]⟩
abbrev S1x8192x32x64 : Shape := ⟨4, ![1, 8192, 32, 64]⟩
abbrev S1x8192x8x64 : Shape := ⟨4, ![1, 8192, 8, 64]⟩

abbrev nBuf : Space → Nat
  | .hbm => 68
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1x1x1x128, .f32⟩
  | .hbm, ⟨6, _⟩ => ⟨S1x1x1x128, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S1x8192x32x128, .f32⟩
  | .hbm, ⟨11, _⟩ => ⟨S1x8192x8x128, .f32⟩
  | .hbm, ⟨12, _⟩ => ⟨S1x8192x32x128, .f32⟩
  | .hbm, ⟨13, _⟩ => ⟨S_, .f32⟩
  | .hbm, ⟨14, _⟩ => ⟨S1x8192x32, .f32⟩
  | .hbm, ⟨15, _⟩ => ⟨S1x8192x32x1, .f32⟩
  | .hbm, ⟨16, _⟩ => ⟨S_, .f32⟩
  | .hbm, ⟨17, _⟩ => ⟨S1x8192x32x1, .f32⟩
  | .hbm, ⟨18, _⟩ => ⟨S1x8192x32x1, .f32⟩
  | .hbm, ⟨19, _⟩ => ⟨S_, .f32⟩
  | .hbm, ⟨20, _⟩ => ⟨S1x8192x32x1, .f32⟩
  | .hbm, ⟨21, _⟩ => ⟨S1x8192x32x1, .f32⟩
  | .hbm, ⟨22, _⟩ => ⟨S1x8192x32x1, .f32⟩
  | .hbm, ⟨23, _⟩ => ⟨S1x8192x32x128, .f32⟩
  | .hbm, ⟨24, _⟩ => ⟨S1x8192x32x128, .f32⟩
  | .hbm, ⟨25, _⟩ => ⟨S1x1x1x128, .f32⟩
  | .hbm, ⟨26, _⟩ => ⟨S1x8192x32x128, .f32⟩
  | .hbm, ⟨27, _⟩ => ⟨S1x8192x32x128, .f32⟩
  | .hbm, ⟨28, _⟩ => ⟨S1x1x1x128, .f32⟩
  | .hbm, ⟨29, _⟩ => ⟨S1x8192x32x128, .f32⟩
  | .hbm, ⟨30, _⟩ => ⟨S1x8192x32x128, .f32⟩
  | .hbm, ⟨31, _⟩ => ⟨S1x8192x8x128, .f32⟩
  | .hbm, ⟨32, _⟩ => ⟨S_, .f32⟩
  | .hbm, ⟨33, _⟩ => ⟨S1x8192x8, .f32⟩
  | .hbm, ⟨34, _⟩ => ⟨S1x8192x8x1, .f32⟩
  | .hbm, ⟨35, _⟩ => ⟨S_, .f32⟩
  | .hbm, ⟨36, _⟩ => ⟨S1x8192x8x1, .f32⟩
  | .hbm, ⟨37, _⟩ => ⟨S1x8192x8x1, .f32⟩
  | .hbm, ⟨38, _⟩ => ⟨S_, .f32⟩
  | .hbm, ⟨39, _⟩ => ⟨S1x8192x8x1, .f32⟩
  | .hbm, ⟨40, _⟩ => ⟨S1x8192x8x1, .f32⟩
  | .hbm, ⟨41, _⟩ => ⟨S1x8192x8x1, .f32⟩
  | .hbm, ⟨42, _⟩ => ⟨S1x8192x8x128, .f32⟩
  | .hbm, ⟨43, _⟩ => ⟨S1x8192x8x128, .f32⟩
  | .hbm, ⟨44, _⟩ => ⟨S1x1x1x128, .f32⟩
  | .hbm, ⟨45, _⟩ => ⟨S1x8192x8x128, .f32⟩
  | .hbm, ⟨46, _⟩ => ⟨S1x8192x8x128, .f32⟩
  | .hbm, ⟨47, _⟩ => ⟨S1x1x1x128, .f32⟩
  | .hbm, ⟨48, _⟩ => ⟨S1x8192x8x128, .f32⟩
  | .hbm, ⟨49, _⟩ => ⟨S1x8192x8x128, .f32⟩
  | .hbm, ⟨50, _⟩ => ⟨S1x8192x32x128, .f32⟩
  | .hbm, ⟨51, _⟩ => ⟨S1x8192x32x128, .f32⟩
  | .hbm, ⟨52, _⟩ => ⟨S1x8192x32x64, .f32⟩
  | .hbm, ⟨53, _⟩ => ⟨S1x8192x32x64, .f32⟩
  | .hbm, ⟨54, _⟩ => ⟨S1x8192x32x64, .f32⟩
  | .hbm, ⟨55, _⟩ => ⟨S1x8192x32x128, .f32⟩
  | .hbm, ⟨56, _⟩ => ⟨S1x8192x32x128, .f32⟩
  | .hbm, ⟨57, _⟩ => ⟨S1x8192x32x128, .f32⟩
  | .hbm, ⟨58, _⟩ => ⟨S1x8192x32x128, .f32⟩
  | .hbm, ⟨59, _⟩ => ⟨S1x8192x8x128, .f32⟩
  | .hbm, ⟨60, _⟩ => ⟨S1x8192x8x128, .f32⟩
  | .hbm, ⟨61, _⟩ => ⟨S1x8192x8x64, .f32⟩
  | .hbm, ⟨62, _⟩ => ⟨S1x8192x8x64, .f32⟩
  | .hbm, ⟨63, _⟩ => ⟨S1x8192x8x64, .f32⟩
  | .hbm, ⟨64, _⟩ => ⟨S1x8192x8x128, .f32⟩
  | .hbm, ⟨65, _⟩ => ⟨S1x8192x8x128, .f32⟩
  | .hbm, ⟨66, _⟩ => ⟨S1x8192x8x128, .f32⟩
  | .hbm, ⟨67, _⟩ => ⟨S1x8192x8x128, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]

class Facts₀ : Prop where
  slices_S8192x6144_S8192x4096_0_0 : S8192x6144.Slices ![0, 0] S8192x4096
  slices_S8192x6144_S8192x1024_0_4096 : S8192x6144.Slices ![0, 4096] S8192x1024
  slices_S8192x6144_S8192x1024_0_5120 : S8192x6144.Slices ![0, 5120] S8192x1024
  shapeCasts_S8192x4096_S1x8192x32x128 : S8192x4096.ShapeCasts S1x8192x32x128
  shapeCasts_S8192x1024_S1x8192x8x128 : S8192x1024.ShapeCasts S1x8192x8x128
  reducesTo_S1x8192x32x128_S1x8192x32_d3 : S1x8192x32x128.ReducesTo [3] S1x8192x32
  h_S_ : 0 < S_.numel
  bcast_S1x8192x32_S1x8192x32x1_0_1_2 : S1x8192x32.BroadcastsInDim S1x8192x32x1 (![0, 1, 2] : Fin 3 → Fin S1x8192x32x1.rank)
  bcast_S_S1x8192x32x1 : S_.BroadcastsInDim S1x8192x32x1 (![] : Fin 0 → Fin S1x8192x32x1.rank)
  bcast_S1x8192x32x1_S1x8192x32x128_0_1_2_3 : S1x8192x32x1.BroadcastsInDim S1x8192x32x128 (![0, 1, 2, 3] : Fin 4 → Fin S1x8192x32x128.rank)
  bcast_S128_S1x1x1x128_3 : S128.BroadcastsInDim S1x1x1x128 (![3] : Fin 1 → Fin S1x1x1x128.rank)
  bcast_S1x1x1x128_S1x8192x32x128_0_1_2_3 : S1x1x1x128.BroadcastsInDim S1x8192x32x128 (![0, 1, 2, 3] : Fin 4 → Fin S1x8192x32x128.rank)
  reducesTo_S1x8192x8x128_S1x8192x8_d3 : S1x8192x8x128.ReducesTo [3] S1x8192x8
  bcast_S1x8192x8_S1x8192x8x1_0_1_2 : S1x8192x8.BroadcastsInDim S1x8192x8x1 (![0, 1, 2] : Fin 3 → Fin S1x8192x8x1.rank)
  bcast_S_S1x8192x8x1 : S_.BroadcastsInDim S1x8192x8x1 (![] : Fin 0 → Fin S1x8192x8x1.rank)
  bcast_S1x8192x8x1_S1x8192x8x128_0_1_2_3 : S1x8192x8x1.BroadcastsInDim S1x8192x8x128 (![0, 1, 2, 3] : Fin 4 → Fin S1x8192x8x128.rank)
  bcast_S1x1x1x128_S1x8192x8x128_0_1_2_3 : S1x1x1x128.BroadcastsInDim S1x8192x8x128 (![0, 1, 2, 3] : Fin 4 → Fin S1x8192x8x128.rank)
  slices_S1x8192x32x128_S1x8192x32x64_0_0_0_0 : S1x8192x32x128.Slices ![0, 0, 0, 0] S1x8192x32x64
  slices_S1x8192x32x128_S1x8192x32x64_0_0_0_64 : S1x8192x32x128.Slices ![0, 0, 0, 64] S1x8192x32x64
  concatenates_S1x8192x32x64_S1x8192x32x64_S1x8192x32x128_d3 : Shape.Concatenates [S1x8192x32x64, S1x8192x32x64] S1x8192x32x128 3
  slices_S1x8192x8x128_S1x8192x8x64_0_0_0_0 : S1x8192x8x128.Slices ![0, 0, 0, 0] S1x8192x8x64
  slices_S1x8192x8x128_S1x8192x8x64_0_0_0_64 : S1x8192x8x128.Slices ![0, 0, 0, 64] S1x8192x8x64
  concatenates_S1x8192x8x64_S1x8192x8x64_S1x8192x8x128_d3 : Shape.Concatenates [S1x8192x8x64, S1x8192x8x64] S1x8192x8x128 3

variable [Facts₀]

class Facts : Prop extends Facts₀ where

variable [Facts]
-- ==== Proof.RopeSpec.lean ====
/-
  What the three result arrays hold, as functions of the argument arrays on the extended reals.

  The fused projection `X` has 8192 rows of 6144 columns: 32 query heads of width 128 (columns 0 … 4095), 8 key heads of
  width 128 (columns 4096 … 5119) and 1024 value columns (5120 … 6143). For one head `x : Fin 128 → EReal` of one row,
  with a scale `w` and a shift `b` per lane:

    normed x w b d  =  x d · (Σₖ x k · x k / 128 + ε)^(-1/2) · w d + b d            (root-mean-square normalisation)

  and the rotary embedding in its rotate-half form pairs lane `d` with the lane 64 away:

    rope x w b cs sn d  =  n d · cs d + n̂ d · sn d,     n = normed x w b,
    n̂ = the concatenation of (−n on lanes 64 … 127) and (n on lanes 0 … 63), so n̂ d = −n (d + 64) for d < 64 and n (d − 64) otherwise.

  `partner` spells n̂ as a concatenation is read: piece number `d / 64`, position `d % 64` inside the piece.
  The two float literals (128 and ε) are kept as the words both programs carry; nothing here depends on their values.
-/
import Idealize.ShloMosaic.PureOps.Ideal
import Idealize.ShloMosaic.PureOps.Ideal.Laws
import Idealize.ShloMosaic.Lib.ValueIdx

noncomputable section

namespace Cert.HeadRope

open Idealize.ShloMosaic Idealize.ShloMosaic.ValueIdx

/-- The head width 128 as both programs write it: the f32 word of 128.0. -/
abbrev width : EReal := Ideal.ofBits .f32 0x43000000#32

/-- The stabiliser ε added under the root: the f32 word nearest 1e-6 (the same word in both programs). -/
abbrev eps : EReal := Ideal.ofBits .f32 0x358637BD#32

/-- Lane `d` of a head after root-mean-square normalisation, scale `w` and shift `b`. -/
def normed (x w b : Fin 128 → EReal) (d : Fin 128) : EReal :=
  x d * Ideal.rsqrt (Ideal.div (∑ k : Fin 128, x k * x k) width + eps) * w d + b d

/-- The two pieces whose concatenation is the rotate-half of `n`: piece 0 is minus the upper half, piece 1 the lower half. -/
def halves (n : Fin 128 → EReal) : Fin 2 → Fin 64 → EReal := fun p e =>
  match p with
  | ⟨0, _⟩ => -(n ⟨64 + e.val, by have := e.isLt; omega⟩)
  | ⟨1, _⟩ => n ⟨e.val, by have := e.isLt; omega⟩

/-- Lane `d` of the rotate-half of `n`: piece `d / 64` at position `d % 64`. -/
def partner (n : Fin 128 → EReal) (d : Fin 128) : EReal :=
  halves n ⟨d.val / 64, by have := d.isLt; omega⟩ ⟨d.val % 64, by omega⟩

/-- Lane `d` of a head after normalisation and the rotary embedding with cosines `cs` and sines `sn`. -/
def rope (x w b cs sn : Fin 128 → EReal) (d : Fin 128) : EReal :=
  normed x w b d * cs d + partner (normed x w b) d * sn d

/-! ## Where a head's lanes sit in a row of the fused projection -/

/-- Lane `k` of query head `h` in row `r`: column `128·h + k`. -/
abbrev qAt (r : Fin 8192) (h : Fin 32) (k : Fin 128) : (⟨2, ![8192, 6144]⟩ : Shape).Idx :=
  ix2 r ⟨h.val * 128 + k.val, by have := h.isLt; have := k.isLt; omega⟩

/-- Lane `k` of key head `h` in row `r`: column `4096 + 128·h + k`. -/
abbrev kAt (r : Fin 8192) (h : Fin 8) (k : Fin 128) : (⟨2, ![8192, 6144]⟩ : Shape).Idx :=
  ix2 r ⟨4096 + (h.val * 128 + k.val), by have := h.isLt; have := k.isLt; omega⟩

/-- Value column `j` of row `r`: column `5120 + j`. -/
abbrev vAt (r : Fin 8192) (j : Fin 1024) : (⟨2, ![8192, 6144]⟩ : Shape).Idx :=
  ix2 r ⟨5120 + j.val, by have := j.isLt; omega⟩

/-! ## The three result arrays -/

/-- The rotated queries [1, 8192, 32, 128]: entry (0, r, h, d) is lane `d` of `rope` of query head `h` of row `r`. -/
def qOut (X : FVec Ideal ⟨2, ![8192, 6144]⟩ .f32) (W B : FVec Ideal ⟨1, ![128]⟩ .f32) (C S : FVec Ideal ⟨4, ![1, 1, 1, 128]⟩ .f32) :
    FVec Ideal ⟨4, ![1, 8192, 32, 128]⟩ .f32 := fun i =>
  rope (fun k => X (qAt ⟨(i 1).val, (i 1).isLt⟩ ⟨(i 2).val, (i 2).isLt⟩ k)) (fun k => W (ix1 k)) (fun k => B (ix1 k))
    (fun k => C (ix4 0 0 0 k)) (fun k => S (ix4 0 0 0 k)) ⟨(i 3).val, (i 3).isLt⟩

/-- The rotated keys [1, 8192, 8, 128]: entry (0, r, h, d) is lane `d` of `rope` of key head `h` of row `r`. -/
def kOut (X : FVec Ideal ⟨2, ![8192, 6144]⟩ .f32) (W B : FVec Ideal ⟨1, ![128]⟩ .f32) (C S : FVec Ideal ⟨4, ![1, 1, 1, 128]⟩ .f32) :
    FVec Ideal ⟨4, ![1, 8192, 8, 128]⟩ .f32 := fun i =>
  rope (fun k => X (kAt ⟨(i 1).val, (i 1).isLt⟩ ⟨(i 2).val, (i 2).isLt⟩ k)) (fun k => W (ix1 k)) (fun k => B (ix1 k))
    (fun k => C (ix4 0 0 0 k)) (fun k => S (ix4 0 0 0 k)) ⟨(i 3).val, (i 3).isLt⟩

/-- The values [8192, 1024]: the last 1024 columns of the fused projection, untouched. -/
def vOut (X : FVec Ideal ⟨2, ![8192, 6144]⟩ .f32) : FVec Ideal ⟨2, ![8192, 1024]⟩ .f32 := fun i =>
  X (vAt ⟨(i 0).val, (i 0).isLt⟩ ⟨(i 1).val, (i 1).isLt⟩)

/-! ## The result arrays at an index with known coordinates -/

/-- `qOut` at an index whose row, head and lane coordinates are `r`, `h`, `d`. -/
theorem qOut_at (X : FVec Ideal ⟨2, ![8192, 6144]⟩ .f32) (W B : FVec Ideal ⟨1, ![128]⟩ .f32) (C S : FVec Ideal ⟨4, ![1, 1, 1, 128]⟩ .f32)
    (i : (⟨4, ![1, 8192, 32, 128]⟩ : Shape).Idx) (r : Fin 8192) (h : Fin 32) (d : Fin 128)
    (h1 : (i 1).val = r.val) (h2 : (i 2).val = h.val) (h3 : (i 3).val = d.val) :
    qOut X W B C S i = rope (fun k => X (qAt r h k)) (fun k => W (ix1 k)) (fun k => B (ix1 k))
      (fun k => C (ix4 0 0 0 k)) (fun k => S (ix4 0 0 0 k)) d := by
  have e1 : (⟨(i 1).val, (i 1).isLt⟩ : Fin 8192) = r := Fin.ext h1
  have e2 : (⟨(i 2).val, (i 2).isLt⟩ : Fin 32) = h := Fin.ext h2
  have e3 : (⟨(i 3).val, (i 3).isLt⟩ : Fin 128) = d := Fin.ext h3
  unfold qOut
  rw [e1, e2, e3]

/-- `kOut` at an index whose row, head and lane coordinates are `r`, `h`, `d`. -/
theorem kOut_at (X : FVec Ideal ⟨2, ![8192, 6144]⟩ .f32) (W B : FVec Ideal ⟨1, ![128]⟩ .f32) (C S : FVec Ideal ⟨4, ![1, 1, 1, 128]⟩ .f32)
    (i : (⟨4, ![1, 8192, 8, 128]⟩ : Shape).Idx) (r : Fin 8192) (h : Fin 8) (d : Fin 128)
    (h1 : (i 1).val = r.val) (h2 : (i 2).val = h.val) (h3 : (i 3).val = d.val) :
    kOut X W B C S i = rope (fun k => X (kAt r h k)) (fun k => W (ix1 k)) (fun k => B (ix1 k))
      (fun k => C (ix4 0 0 0 k)) (fun k => S (ix4 0 0 0 k)) d := by
  have e1 : (⟨(i 1).val, (i 1).isLt⟩ : Fin 8192) = r := Fin.ext h1
  have e2 : (⟨(i 2).val, (i 2).isLt⟩ : Fin 8) = h := Fin.ext h2
  have e3 : (⟨(i 3).val, (i 3).isLt⟩ : Fin 128) = d := Fin.ext h3
  unfold kOut
  rw [e1, e2, e3]

/-- `vOut` at an index whose coordinates are `r`, `j`. -/
theorem vOut_at (X : FVec Ideal ⟨2, ![8192, 6144]⟩ .f32) (i : (⟨2, ![8192, 1024]⟩ : Shape).Idx) (r : Fin 8192) (j : Fin 1024)
    (h0 : (i 0).val = r.val) (h1 : (i 1).val = j.val) : vOut X i = X (vAt r j) := by
  have e0 : (⟨(i 0).val, (i 0).isLt⟩ : Fin 8192) = r := Fin.ext h0
  have e1 : (⟨(i 1).val, (i 1).isLt⟩ : Fin 1024) = j := Fin.ext h1
  unfold vOut
  rw [e0, e1]

/-! ## Two small laws of the extended reals that join the two programs' spellings -/

/-- Subtracting from zero is negation (the kernel writes `0 − x` where the reference negates). -/
theorem zero_sub_eq (x : EReal) : (Ideal.ofBits .f32 0x00000000#32 : EReal) - x = -x := by
  rw [Ideal.ofBits_zero_f32, zero_sub]

/-- A sum started from the zero word is the sum (the host's reduction carries its initial value). -/
theorem zero_add_eq (x : EReal) : (Ideal.ofBits .f32 0x00000000#32 : EReal) + x = x := by
  rw [Ideal.ofBits_zero_f32, zero_add]

end Cert.HeadRope

end
-- ==== Proof.KernelQuery.lean ====
/-
  The kernel's query payload, read at an index.

  At one grid point the body holds a [128, 6144] block `P0` of the fused projection and four parameter rows of shape
  [1, 128] (scale `P1`, shift `P2`, cosines `P5`, sines `P6`). It views columns 0 … 4095 as [128, 32, 128]
  (row, head, lane), sums the squares of every head over its lanes, divides by 128, adds ε, takes the inverse square root,
  multiplies the head by it, scales and shifts — the normalised heads —, then rotates: lane by lane the normalised value
  times the cosine plus the rotate-half partner times the sine, the rotate-half being the concatenation of zero minus the
  upper half and the lower half. Every vector operation is read at an index (row `r`, head `h`, lane `d`); the whole
  payload at (0, r, h, d) is `rope` of head `h` of row `r` of the block.
-/
import proofs.«130383_j76587856822536_1_alg».proof.Proof.Gen.KernelIdeal.Skeleton
import proofs.«130383_j76587856822536_1_alg».proof.Proof.RopeSpec
import Idealize.ShloMosaic.Lib.Pipeline.Value
import Idealize.ShloMosaic.PureOps.Ideal.Laws

noncomputable section

namespace Cert.HeadRope.KernelQuery

open Cert.KernelIdeal Cert.KernelIdeal.Gen Cert.HeadRope Idealize.ShloMosaic Idealize.ShloMosaic.ValueIdx

/-! ## The body's sub-vectors, named -/

/-- Lane `k` of query head `h` in row `r` of a [128, 6144] block: column 128·h + k. -/
abbrev colOf (r : Fin 128) (h : Fin 32) (k : Fin 128) : S128x6144.Idx :=
  ix2 r ⟨h.val * 128 + k.val, by have := h.isLt; have := k.isLt; omega⟩

/-- The lane of a parameter row. -/
abbrev laneOf (k : Fin 128) : S1x128.Idx := ix2 (0 : Fin 1) k

/-- Head `h` of row `r` of the block, lane by lane. -/
abbrev headOf (P0 : FVec Ideal S128x6144 .f32) (r : Fin 128) (h : Fin 32) : Fin 128 → EReal := fun k => P0 (colOf r h k)

/-- The 4096 query columns of the block viewed as [128, 32, 128]. -/
abbrev heads (P0 : FVec Ideal S128x6144 .f32) : FVec Ideal S128x32x128 .f32 :=
  shapeCast S128x32x128 (extractStridedSlice S128x4096 ![0, 0] P0 slices_S128x6144_o0_0_S128x4096) shapeCasts_S128x4096_S128x32x128

/-- The lane sums of squares, [128, 32]. -/
abbrev sumSq (Q : FVec Ideal S128x32x128 .f32) : FVec Ideal S128x32 .f32 :=
  multiReduction .add [2] S128x32 (mulf Q Q) 0x00000000#32 reduces_S128x32x128_S128x32 (.inl rfl) rfl

/-- The mean squares with a unit lane axis, [128, 32, 1]. -/
abbrev meanSq (M : FVec Ideal S128x32 .f32) : FVec Ideal S128x32x1 .f32 :=
  divf (shapeCast S128x32x1 M shapeCasts_S128x32_S128x32x1) (broadcast S128x32x1 (Scalar.ofBits .f32 0x43000000#32))

/-- The inverse root of (a [128, 32, 1] statistic plus a constant), spread over the lanes. -/
abbrev invRoot (V : FVec Ideal S128x32x1 .f32) (c : Ideal .f32) : FVec Ideal S128x32x128 .f32 :=
  broadcastTo S128x32x128 (rsqrt (addf V (broadcast S128x32x1 c))) broadcasts_S128x32x1_S128x32x128

/-- A [1, 128] parameter row spread over rows and heads. -/
abbrev spread (P : FVec Ideal S1x128 .f32) : FVec Ideal S128x32x128 .f32 :=
  broadcastTo S128x32x128 (shapeCast S1x1x128 P shapeCasts_S1x128_S1x1x128) broadcasts_S1x1x128_S128x32x128

/-- The two pieces the body concatenates along the lanes: zero minus the upper half of `N`, then its lower half. -/
abbrev rotPieces (N : FVec Ideal S128x32x128 .f32) : Fin 2 → (S128x32x64.Idx → Ideal .f32) := fun n => match n with
  | ⟨0, _⟩ => subf (broadcast S128x32x64 (Scalar.ofBits .f32 0x00000000#32)) (extractStridedSlice S128x32x64 ![0, 0, 64] N slices_S128x32x128_o0_0_64_S128x32x64)
  | ⟨1, _⟩ => extractStridedSlice S128x32x64 ![0, 0, 0] N slices_S128x32x128_o0_0_0_S128x32x64

/-- The rotate-half of `N`: the concatenation of the two pieces along the lane axis. -/
abbrev rotated (N : FVec Ideal S128x32x128 .f32) : FVec Ideal S128x32x128 .f32 :=
  concatenate S128x32x128 2 [⟨S128x32x64, subf (broadcast S128x32x64 (Scalar.ofBits .f32 0x00000000#32)) (extractStridedSlice S128x32x64 ![0, 0, 64] N slices_S128x32x128_o0_0_64_S128x32x64)⟩,
    ⟨S128x32x64, extractStridedSlice S128x32x64 ![0, 0, 0] N slices_S128x32x128_o0_0_0_S128x32x64⟩] concatenates_S128x32x64_S128x32x64_S128x32x128_d2

/-- The payload of the normalised heads is this tree of the sub-vectors. -/
theorem normed_tree (P0 : FVec Ideal S128x6144 .f32) (P1 P2 : FVec Ideal S1x128 .f32) :
    k0_pay9 P0 P1 P2
      = addf (mulf (mulf (heads P0) (invRoot (meanSq (sumSq (heads P0))) (Scalar.ofBits .f32 0x358637BD#32)))
          (spread (shapeCast S1x128 P1 shapeCasts_S1x128_S1x128))) (spread (shapeCast S1x128 P2 shapeCasts_S1x128_S1x128)) := rfl

/-- The stored payload is this tree of the normalised heads `N`, the cosines `C` and the sines `S`. -/
theorem rope_tree (C S : FVec Ideal S1x128 .f32) (N : FVec Ideal S128x32x128 .f32) :
    k0_pay1 C S N = shapeCast S1x128x32x128 (addf (mulf N (spread C)) (mulf (rotated N) (spread S))) shapeCasts_S128x32x128_S1x128x32x128 := rfl

/-- A [1, 128] row cast to its own shape is itself. -/
theorem cos_row (P : FVec Ideal S1x128 .f32) : k0_pay7 P = P := shapeCast_self P _
theorem sin_row (P : FVec Ideal S1x128 .f32) : k0_pay8 P = P := shapeCast_self P _

/-! ## Each sub-vector at an index -/

/-- The heads at (r, h, d): the block at row `r`, column 128·h + d. -/
theorem heads_apply (P0 : FVec Ideal S128x6144 .f32) (r : Fin 128) (h : Fin 32) (d : Fin 128) :
    heads P0 (ix3 r h d) = P0 (colOf r h d) := by
  have hr := r.isLt; have hh := h.isLt; have hd := d.isLt
  refine (shapeCast_apply _ _ (ix3 r h d) (ix2 r ⟨h.val * 128 + d.val, by omega⟩ : S128x4096.Idx) ?_).trans ?_
  · rw [Shape.rowMajor_val_two, Shape.rowMajor_val_three]
    show r.val * 4096 + (h.val * 128 + d.val) = (r.val * 32 + h.val) * 128 + d.val
    omega
  · exact extractStridedSlice_apply ![0, 0] P0 slices_S128x6144_o0_0_S128x4096 _ (colOf r h d) (fun a => match a with
      | ⟨0, _⟩ => by show r.val = 0 + r.val; omega
      | ⟨1, _⟩ => by show h.val * 128 + d.val = 0 + (h.val * 128 + d.val); omega)

/-- The sums of squares at (r, h): the sum over the 128 lanes of head `h` of row `r`. -/
theorem sumSq_apply (Q : FVec Ideal S128x32x128 .f32) (r : Fin 128) (h : Fin 32) :
    sumSq Q (ix2 r h) = ∑ k : Fin 128, Q (ix3 r h k) * Q (ix3 r h k) := by
  refine (Ideal.multiReduction_add_single (mulf Q Q) 0x00000000#32 reduces_S128x32x128_S128x32 (.inl rfl) rfl (ix2 r h)).trans ?_
  refine Finset.sum_congr rfl fun k _ => ?_
  have e : reduces_S128x32x128_S128x32.lift (ix2 r h) k = ix3 r h k := by
    funext a; apply Fin.ext
    match a with
    | ⟨0, _⟩ => rfl
    | ⟨1, _⟩ => rfl
    | ⟨2, _⟩ => rfl
  rw [e]
  rfl

/-- The mean squares at (r, h, 0): the [128, 32] sums at (r, h), divided by 128. -/
theorem meanSq_apply (M : FVec Ideal S128x32 .f32) (r : Fin 128) (h : Fin 32) :
    meanSq M (ix3 r h (0 : Fin 1)) = Ideal.div (M (ix2 r h)) width := by
  have hr := r.isLt; have hh := h.isLt
  have e : (shapeCast S128x32x1 M shapeCasts_S128x32_S128x32x1) (ix3 r h (0 : Fin 1)) = M (ix2 r h) :=
    shapeCast_apply M shapeCasts_S128x32_S128x32x1 (ix3 r h (0 : Fin 1)) (ix2 r h) (by
      rw [Shape.rowMajor_val_two, Shape.rowMajor_val_three]
      show r.val * 32 + h.val = (r.val * 32 + h.val) * 1 + 0
      omega)
  show Ideal.div ((shapeCast S128x32x1 M shapeCasts_S128x32_S128x32x1) (ix3 r h (0 : Fin 1))) width = _
  rw [e]

/-- The spread inverse root at (r, h, d): it does not depend on the lane. -/
theorem invRoot_apply (V : FVec Ideal S128x32x1 .f32) (c : Ideal .f32) (r : Fin 128) (h : Fin 32) (d : Fin 128) :
    invRoot V c (ix3 r h d) = Ideal.rsqrt (V (ix3 r h (0 : Fin 1)) + c) := by
  refine (broadcastTo_apply _ _ (ix3 r h d) (ix3 r h (0 : Fin 1)) (fun a => match a with
    | ⟨0, _⟩ => by show r.val = if (128 : Nat) = 1 then 0 else r.val; rw [if_neg (by decide)]
    | ⟨1, _⟩ => by show h.val = if (32 : Nat) = 1 then 0 else h.val; rw [if_neg (by decide)]
    | ⟨2, _⟩ => by show 0 = if (1 : Nat) = 1 then 0 else d.val; rw [if_pos rfl])).trans ?_
  rfl

/-- A spread parameter row at (r, h, d): its lane `d`. -/
theorem spread_apply (P : FVec Ideal S1x128 .f32) (r : Fin 128) (h : Fin 32) (d : Fin 128) :
    spread P (ix3 r h d) = P (laneOf d) := by
  have hd := d.isLt
  refine (broadcastTo_apply _ _ (ix3 r h d) (ix3 (0 : Fin 1) (0 : Fin 1) d) (fun a => match a with
    | ⟨0, _⟩ => by show 0 = if (1 : Nat) = 1 then 0 else r.val; rw [if_pos rfl]
    | ⟨1, _⟩ => by show 0 = if (1 : Nat) = 1 then 0 else h.val; rw [if_pos rfl]
    | ⟨2, _⟩ => by show d.val = if (128 : Nat) = 1 then 0 else d.val; rw [if_neg (by decide)])).trans ?_
  exact shapeCast_apply P shapeCasts_S1x128_S1x1x128 (ix3 (0 : Fin 1) (0 : Fin 1) d) (laneOf d) (by
    rw [Shape.rowMajor_val_two, Shape.rowMajor_val_three]
    show 0 * 128 + d.val = (0 * 1 + 0) * 128 + d.val
    omega)

/-- THE NORMALISED HEADS at (r, h, d): `normed` of head `h` of row `r` of the block, with the scale and the shift. -/
theorem normed_apply (P0 : FVec Ideal S128x6144 .f32) (P1 P2 : FVec Ideal S1x128 .f32) (r : Fin 128) (h : Fin 32) (d : Fin 128) :
    k0_pay9 (F := Ideal) P0 P1 P2 (ix3 r h d) = normed (headOf P0 r h) (fun k => P1 (laneOf k)) (fun k => P2 (laneOf k)) d := by
  rw [normed_tree, shapeCast_self, shapeCast_self]
  show heads P0 (ix3 r h d) * invRoot (meanSq (sumSq (heads P0))) (Scalar.ofBits .f32 0x358637BD#32) (ix3 r h d) * spread P1 (ix3 r h d)
      + spread P2 (ix3 r h d) = _
  rw [heads_apply, invRoot_apply, meanSq_apply, sumSq_apply, spread_apply, spread_apply]
  simp only [heads_apply]
  rfl

/-- Piece `n` at (r, h, e) is half `n` of head (r, h) of `N`. -/
theorem rotPieces_apply (N : FVec Ideal S128x32x128 .f32) (r : Fin 128) (h : Fin 32) (n : Fin 2) (e : Fin 64) :
    rotPieces N n (ix3 r h e) = halves (fun d => N (ix3 r h d)) n e := by
  have he := e.isLt
  match n with
  | ⟨0, _⟩ =>
    show (Ideal.ofBits .f32 0x00000000#32 : EReal) - (extractStridedSlice S128x32x64 ![0, 0, 64] N slices_S128x32x128_o0_0_64_S128x32x64) (ix3 r h e)
      = -(N (ix3 r h ⟨64 + e.val, _⟩))
    rw [zero_sub_eq]
    exact congrArg Neg.neg (extractStridedSlice_apply ![0, 0, 64] N slices_S128x32x128_o0_0_64_S128x32x64 (ix3 r h e)
      (ix3 r h ⟨64 + e.val, by omega⟩) (fun a => match a with
        | ⟨0, _⟩ => by show r.val = 0 + r.val; omega
        | ⟨1, _⟩ => by show h.val = 0 + h.val; omega
        | ⟨2, _⟩ => by show 64 + e.val = 64 + e.val; rfl))
  | ⟨1, _⟩ =>
    show (extractStridedSlice S128x32x64 ![0, 0, 0] N slices_S128x32x128_o0_0_0_S128x32x64) (ix3 r h e) = N (ix3 r h ⟨e.val, _⟩)
    exact extractStridedSlice_apply ![0, 0, 0] N slices_S128x32x128_o0_0_0_S128x32x64 (ix3 r h e)
      (ix3 r h ⟨e.val, by omega⟩) (fun a => match a with
        | ⟨0, _⟩ => by show r.val = 0 + r.val; omega
        | ⟨1, _⟩ => by show h.val = 0 + h.val; omega
        | ⟨2, _⟩ => by show e.val = 0 + e.val; omega)

/-- THE ROTATE-HALF at (r, h, d): the partner of lane `d` in head (r, h) of `N` — piece `d / 64` at position `d % 64`. -/
theorem rotated_apply (N : FVec Ideal S128x32x128 .f32) (r : Fin 128) (h : Fin 32) (d : Fin 128) :
    rotated N (ix3 r h d) = partner (fun e => N (ix3 r h e)) d := by
  have hd := d.isLt
  unfold partner
  show concatenate S128x32x128 2 (List.ofFn fun n : Fin 2 => (⟨S128x32x64, rotPieces N n⟩ : (s : Shape) × (s.Idx → _))) _ (ix3 r h d) = _
  refine (concatenate_ofFn_apply (t := S128x32x128) (s₁ := S128x32x64) (2 : Fin 3) (rotPieces N) _ rfl 64 rfl (ix3 r h d)
    ⟨d.val / 64, by omega⟩ rfl (ix3 r h ⟨d.val % 64, by omega⟩) rfl (fun b hb => ?_)).trans ?_
  · match b with
    | ⟨0, _⟩ => rfl
    | ⟨1, _⟩ => rfl
    | ⟨2, _⟩ => exact absurd rfl hb
  · exact rotPieces_apply N r h _ _

/-! ## The stored payload -/

/-- THE QUERY PAYLOAD at a block index `y`: `rope` of head `y 2` of row `y 1` of the block, at lane `y 3`. -/
theorem payload_apply (P0 : FVec Ideal S128x6144 .f32) (P1 P2 P5 P6 : FVec Ideal S1x128 .f32) (y : S1x128x32x128.Idx) :
    k0_pay1 (F := Ideal) (k0_pay7 P5) (k0_pay8 P6) (k0_pay9 P0 P1 P2) y
      = rope (headOf P0 ⟨(y 1).val, (y 1).isLt⟩ ⟨(y 2).val, (y 2).isLt⟩) (fun k => P1 (laneOf k)) (fun k => P2 (laneOf k))
          (fun k => P5 (laneOf k)) (fun k => P6 (laneOf k)) ⟨(y 3).val, (y 3).isLt⟩ := by
  have h0 : (y 0).val < 1 := (y 0).isLt
  have h1 : (y 1).val < 128 := (y 1).isLt
  have h2 : (y 2).val < 32 := (y 2).isLt
  have h3 : (y 3).val < 128 := (y 3).isLt
  rw [cos_row, sin_row, rope_tree]
  refine (shapeCast_apply _ _ y (ix3 (⟨(y 1).val, h1⟩ : Fin 128) (⟨(y 2).val, h2⟩ : Fin 32) (⟨(y 3).val, h3⟩ : Fin 128)) ?_).trans ?_
  · rw [Shape.rowMajor_val_three, Shape.rowMajor_val_four]
    show ((y 1).val * 32 + (y 2).val) * 128 + (y 3).val = (((y 0).val * 128 + (y 1).val) * 32 + (y 2).val) * 128 + (y 3).val
    omega
  · show k0_pay9 (F := Ideal) P0 P1 P2 (ix3 (⟨(y 1).val, h1⟩ : Fin 128) (⟨(y 2).val, h2⟩ : Fin 32) (⟨(y 3).val, h3⟩ : Fin 128)) * spread P5 (ix3 (⟨(y 1).val, h1⟩ : Fin 128) (⟨(y 2).val, h2⟩ : Fin 32) (⟨(y 3).val, h3⟩ : Fin 128))
        + rotated (k0_pay9 (F := Ideal) P0 P1 P2) (ix3 (⟨(y 1).val, h1⟩ : Fin 128) (⟨(y 2).val, h2⟩ : Fin 32) (⟨(y 3).val, h3⟩ : Fin 128)) * spread P6 (ix3 (⟨(y 1).val, h1⟩ : Fin 128) (⟨(y 2).val, h2⟩ : Fin 32) (⟨(y 3).val, h3⟩ : Fin 128)) = _
    rw [rotated_apply, normed_apply, spread_apply, spread_apply]
    simp only [normed_apply]
    rfl

end Cert.HeadRope.KernelQuery

end
-- ==== Proof.KernelKey.lean ====
/-
  The kernel's key payload, read at an index.

  The same block `P0` of the fused projection also carries the 8 key heads in columns 4096 … 5119. The body views them as
  [128, 8, 128], takes every head's mean square over its lanes, and — in the stored payload — adds ε, takes the inverse
  square root, multiplies the head by it, scales by `P3`, shifts by `P4`, and applies the rotary embedding with the
  cosines `P5` and the sines `P6` exactly as for a query head. Read at (0, r, h, d) the payload is `rope` of key head
  `h` of row `r` of the block.
-/
import proofs.«130383_j76587856822536_1_alg».proof.Proof.Gen.KernelIdeal.Skeleton
import proofs.«130383_j76587856822536_1_alg».proof.Proof.RopeSpec
import Idealize.ShloMosaic.Lib.Pipeline.Value
import Idealize.ShloMosaic.PureOps.Ideal.Laws

noncomputable section

namespace Cert.HeadRope.KernelKey

open Cert.KernelIdeal Cert.KernelIdeal.Gen Cert.HeadRope Idealize.ShloMosaic Idealize.ShloMosaic.ValueIdx

/-! ## The body's sub-vectors, named -/

/-- Lane `k` of key head `h` in row `r` of a [128, 6144] block: column 4096 + 128·h + k. -/
abbrev colOf (r : Fin 128) (h : Fin 8) (k : Fin 128) : S128x6144.Idx :=
  ix2 r ⟨4096 + (h.val * 128 + k.val), by have := h.isLt; have := k.isLt; omega⟩

/-- The lane of a parameter row. -/
abbrev laneOf (k : Fin 128) : S1x128.Idx := ix2 (0 : Fin 1) k

/-- Head `h` of row `r` of the block, lane by lane. -/
abbrev headOf (P0 : FVec Ideal S128x6144 .f32) (r : Fin 128) (h : Fin 8) : Fin 128 → EReal := fun k => P0 (colOf r h k)

/-- The 1024 key columns (4096 … 5119) of the block viewed as [128, 8, 128]. -/
abbrev heads (P0 : FVec Ideal S128x6144 .f32) : FVec Ideal S128x8x128 .f32 :=
  shapeCast S128x8x128 (extractStridedSlice S128x1024 ![0, 4096] P0 slices_S128x6144_o0_4096_S128x1024) shapeCasts_S128x1024_S128x8x128

/-- The lane sums of squares, [128, 8]. -/
abbrev sumSq (Q : FVec Ideal S128x8x128 .f32) : FVec Ideal S128x8 .f32 :=
  multiReduction .add [2] S128x8 (mulf Q Q) 0x00000000#32 reduces_S128x8x128_S128x8 (.inl rfl) rfl

/-- The mean squares with a unit lane axis, [128, 8, 1]. -/
abbrev meanSq (M : FVec Ideal S128x8 .f32) : FVec Ideal S128x8x1 .f32 :=
  divf (shapeCast S128x8x1 M shapeCasts_S128x8_S128x8x1) (broadcast S128x8x1 (Scalar.ofBits .f32 0x43000000#32))

/-- The inverse root of (a [128, 8, 1] statistic plus a constant), spread over the lanes. -/
abbrev invRoot (V : FVec Ideal S128x8x1 .f32) (c : Ideal .f32) : FVec Ideal S128x8x128 .f32 :=
  broadcastTo S128x8x128 (rsqrt (addf V (broadcast S128x8x1 c))) broadcasts_S128x8x1_S128x8x128

/-- A [1, 128] parameter row spread over rows and heads. -/
abbrev spread (P : FVec Ideal S1x128 .f32) : FVec Ideal S128x8x128 .f32 :=
  broadcastTo S128x8x128 (shapeCast S1x1x128 P shapeCasts_S1x128_S1x1x128) broadcasts_S1x1x128_S128x8x128

/-- The two pieces the body concatenates along the lanes: zero minus the upper half of `N`, then its lower half. -/
abbrev rotPieces (N : FVec Ideal S128x8x128 .f32) : Fin 2 → (S128x8x64.Idx → Ideal .f32) := fun n => match n with
  | ⟨0, _⟩ => subf (broadcast S128x8x64 (Scalar.ofBits .f32 0x00000000#32)) (extractStridedSlice S128x8x64 ![0, 0, 64] N slices_S128x8x128_o0_0_64_S128x8x64)
  | ⟨1, _⟩ => extractStridedSlice S128x8x64 ![0, 0, 0] N slices_S128x8x128_o0_0_0_S128x8x64

/-- The rotate-half of `N`: the concatenation of the two pieces along the lane axis. -/
abbrev rotated (N : FVec Ideal S128x8x128 .f32) : FVec Ideal S128x8x128 .f32 :=
  concatenate S128x8x128 2 [⟨S128x8x64, subf (broadcast S128x8x64 (Scalar.ofBits .f32 0x00000000#32)) (extractStridedSlice S128x8x64 ![0, 0, 64] N slices_S128x8x128_o0_0_64_S128x8x64)⟩,
    ⟨S128x8x64, extractStridedSlice S128x8x64 ![0, 0, 0] N slices_S128x8x128_o0_0_0_S128x8x64⟩] concatenates_S128x8x64_S128x8x64_S128x8x128_d2

/-- The normalised heads as a vector: heads `Q` times the spread inverse root of (statistic `V` plus `c`), scaled by `w`, shifted by `b`. -/
abbrev normedVec (Q : FVec Ideal S128x8x128 .f32) (V : FVec Ideal S128x8x1 .f32) (c : Ideal .f32) (w b : FVec Ideal S1x128 .f32) :
    FVec Ideal S128x8x128 .f32 :=
  addf (mulf (mulf Q (invRoot V c)) (spread w)) (spread b)

/-- The key heads the body passes on are the [128, 8, 128] view of the key columns. -/
theorem heads_tree (P0 : FVec Ideal S128x6144 .f32) : k0_pay4 (F := Ideal) P0 = heads P0 := rfl

/-- The statistic the body passes on is the mean square of every key head. -/
theorem stat_tree (P0 : FVec Ideal S128x6144 .f32) : k0_pay10 (F := Ideal) P0 = meanSq (sumSq (heads P0)) := rfl

/-- The stored payload is this tree of the heads `Q`, their statistic `V`, the constant `c`, and the four parameter rows. -/
theorem rope_tree (Q : FVec Ideal S128x8x128 .f32) (V : FVec Ideal S128x8x1 .f32) (c : Ideal .f32) (w b C S : FVec Ideal S1x128 .f32) :
    k0_pay2 (F := Ideal) Q w b C S V c
      = shapeCast S1x128x8x128 (addf (mulf (normedVec Q V c w b) (spread C)) (mulf (rotated (normedVec Q V c w b)) (spread S)))
          shapeCasts_S128x8x128_S1x128x8x128 := rfl

/-- A [1, 128] row cast to its own shape is itself. -/
theorem scale_row (P : FVec Ideal S1x128 .f32) : k0_pay5 P = P := shapeCast_self P _
theorem shift_row (P : FVec Ideal S1x128 .f32) : k0_pay6 P = P := shapeCast_self P _
theorem cos_row (P : FVec Ideal S1x128 .f32) : k0_pay7 P = P := shapeCast_self P _
theorem sin_row (P : FVec Ideal S1x128 .f32) : k0_pay8 P = P := shapeCast_self P _

/-! ## Each sub-vector at an index -/

/-- The heads at (r, h, d): the block at row `r`, column 4096 + 128·h + d. -/
theorem heads_apply (P0 : FVec Ideal S128x6144 .f32) (r : Fin 128) (h : Fin 8) (d : Fin 128) :
    heads P0 (ix3 r h d) = P0 (colOf r h d) := by
  have hr := r.isLt; have hh := h.isLt; have hd := d.isLt
  refine (shapeCast_apply _ _ (ix3 r h d) (ix2 r ⟨h.val * 128 + d.val, by omega⟩ : S128x1024.Idx) ?_).trans ?_
  · rw [Shape.rowMajor_val_two, Shape.rowMajor_val_three]
    show r.val * 1024 + (h.val * 128 + d.val) = (r.val * 8 + h.val) * 128 + d.val
    omega
  · exact extractStridedSlice_apply ![0, 4096] P0 slices_S128x6144_o0_4096_S128x1024 _ (colOf r h d) (fun a => match a with
      | ⟨0, _⟩ => by show r.val = 0 + r.val; omega
      | ⟨1, _⟩ => by show 4096 + (h.val * 128 + d.val) = 4096 + (h.val * 128 + d.val); rfl)

/-- The sums of squares at (r, h): the sum over the 128 lanes of head `h` of row `r`. -/
theorem sumSq_apply (Q : FVec Ideal S128x8x128 .f32) (r : Fin 128) (h : Fin 8) :
    sumSq Q (ix2 r h) = ∑ k : Fin 128, Q (ix3 r h k) * Q (ix3 r h k) := by
  refine (Ideal.multiReduction_add_single (mulf Q Q) 0x00000000#32 reduces_S128x8x128_S128x8 (.inl rfl) rfl (ix2 r h)).trans ?_
  refine Finset.sum_congr rfl fun k _ => ?_
  have e : reduces_S128x8x128_S128x8.lift (ix2 r h) k = ix3 r h k := by
    funext a; apply Fin.ext
    match a with
    | ⟨0, _⟩ => rfl
    | ⟨1, _⟩ => rfl
    | ⟨2, _⟩ => rfl
  rw [e]
  rfl

/-- The mean squares at (r, h, 0): the [128, 8] sums at (r, h), divided by 128. -/
theorem meanSq_apply (M : FVec Ideal S128x8 .f32) (r : Fin 128) (h : Fin 8) :
    meanSq M (ix3 r h (0 : Fin 1)) = Ideal.div (M (ix2 r h)) width := by
  have hr := r.isLt; have hh := h.isLt
  have e : (shapeCast S128x8x1 M shapeCasts_S128x8_S128x8x1) (ix3 r h (0 : Fin 1)) = M (ix2 r h) :=
    shapeCast_apply M shapeCasts_S128x8_S128x8x1 (ix3 r h (0 : Fin 1)) (ix2 r h) (by
      rw [Shape.rowMajor_val_two, Shape.rowMajor_val_three]
      show r.val * 8 + h.val = (r.val * 8 + h.val) * 1 + 0
      omega)
  show Ideal.div ((shapeCast S128x8x1 M shapeCasts_S128x8_S128x8x1) (ix3 r h (0 : Fin 1))) width = _
  rw [e]

/-- The spread inverse root at (r, h, d): it does not depend on the lane. -/
theorem invRoot_apply (V : FVec Ideal S128x8x1 .f32) (c : Ideal .f32) (r : Fin 128) (h : Fin 8) (d : Fin 128) :
    invRoot V c (ix3 r h d) = Ideal.rsqrt (V (ix3 r h (0 : Fin 1)) + c) := by
  refine (broadcastTo_apply _ _ (ix3 r h d) (ix3 r h (0 : Fin 1)) (fun a => match a with
    | ⟨0, _⟩ => by show r.val = if (128 : Nat) = 1 then 0 else r.val; rw [if_neg (by decide)]
    | ⟨1, _⟩ => by show h.val = if (8 : Nat) = 1 then 0 else h.val; rw [if_neg (by decide)]
    | ⟨2, _⟩ => by show 0 = if (1 : Nat) = 1 then 0 else d.val; rw [if_pos rfl])).trans ?_
  rfl

/-- A spread parameter row at (r, h, d): its lane `d`. -/
theorem spread_apply (P : FVec Ideal S1x128 .f32) (r : Fin 128) (h : Fin 8) (d : Fin 128) :
    spread P (ix3 r h d) = P (laneOf d) := by
  have hd := d.isLt
  refine (broadcastTo_apply _ _ (ix3 r h d) (ix3 (0 : Fin 1) (0 : Fin 1) d) (fun a => match a with
    | ⟨0, _⟩ => by show 0 = if (1 : Nat) = 1 then 0 else r.val; rw [if_pos rfl]
    | ⟨1, _⟩ => by show 0 = if (1 : Nat) = 1 then 0 else h.val; rw [if_pos rfl]
    | ⟨2, _⟩ => by show d.val = if (128 : Nat) = 1 then 0 else d.val; rw [if_neg (by decide)])).trans ?_
  exact shapeCast_apply P shapeCasts_S1x128_S1x1x128 (ix3 (0 : Fin 1) (0 : Fin 1) d) (laneOf d) (by
    rw [Shape.rowMajor_val_two, Shape.rowMajor_val_three]
    show 0 * 128 + d.val = (0 * 1 + 0) * 128 + d.val
    omega)

/-- THE NORMALISED HEADS at (r, h, d): `normed` of key head `h` of row `r` of the block, with the scale and the shift. -/
theorem normed_apply (P0 : FVec Ideal S128x6144 .f32) (P3 P4 : FVec Ideal S1x128 .f32) (r : Fin 128) (h : Fin 8) (d : Fin 128) :
    normedVec (heads P0) (meanSq (sumSq (heads P0))) (Scalar.ofBits .f32 0x358637BD#32) P3 P4 (ix3 r h d)
      = normed (headOf P0 r h) (fun k => P3 (laneOf k)) (fun k => P4 (laneOf k)) d := by
  show heads P0 (ix3 r h d) * invRoot (meanSq (sumSq (heads P0))) (Scalar.ofBits .f32 0x358637BD#32) (ix3 r h d) * spread P3 (ix3 r h d)
      + spread P4 (ix3 r h d) = _
  rw [heads_apply, invRoot_apply, meanSq_apply, sumSq_apply, spread_apply, spread_apply]
  simp only [heads_apply]
  rfl

/-- Piece `n` at (r, h, e) is half `n` of head (r, h) of `N`. -/
theorem rotPieces_apply (N : FVec Ideal S128x8x128 .f32) (r : Fin 128) (h : Fin 8) (n : Fin 2) (e : Fin 64) :
    rotPieces N n (ix3 r h e) = halves (fun d => N (ix3 r h d)) n e := by
  have he := e.isLt
  match n with
  | ⟨0, _⟩ =>
    show (Ideal.ofBits .f32 0x00000000#32 : EReal) - (extractStridedSlice S128x8x64 ![0, 0, 64] N slices_S128x8x128_o0_0_64_S128x8x64) (ix3 r h e)
      = -(N (ix3 r h ⟨64 + e.val, _⟩))
    rw [zero_sub_eq]
    exact congrArg Neg.neg (extractStridedSlice_apply ![0, 0, 64] N slices_S128x8x128_o0_0_64_S128x8x64 (ix3 r h e)
      (ix3 r h ⟨64 + e.val, by omega⟩) (fun a => match a with
        | ⟨0, _⟩ => by show r.val = 0 + r.val; omega
        | ⟨1, _⟩ => by show h.val = 0 + h.val; omega
        | ⟨2, _⟩ => by show 64 + e.val = 64 + e.val; rfl))
  | ⟨1, _⟩ =>
    show (extractStridedSlice S128x8x64 ![0, 0, 0] N slices_S128x8x128_o0_0_0_S128x8x64) (ix3 r h e) = N (ix3 r h ⟨e.val, _⟩)
    exact extractStridedSlice_apply ![0, 0, 0] N slices_S128x8x128_o0_0_0_S128x8x64 (ix3 r h e)
      (ix3 r h ⟨e.val, by omega⟩) (fun a => match a with
        | ⟨0, _⟩ => by show r.val = 0 + r.val; omega
        | ⟨1, _⟩ => by show h.val = 0 + h.val; omega
        | ⟨2, _⟩ => by show e.val = 0 + e.val; omega)

/-- THE ROTATE-HALF at (r, h, d): the partner of lane `d` in head (r, h) of `N` — piece `d / 64` at position `d % 64`. -/
theorem rotated_apply (N : FVec Ideal S128x8x128 .f32) (r : Fin 128) (h : Fin 8) (d : Fin 128) :
    rotated N (ix3 r h d) = partner (fun e => N (ix3 r h e)) d := by
  have hd := d.isLt
  unfold partner
  show concatenate S128x8x128 2 (List.ofFn fun n : Fin 2 => (⟨S128x8x64, rotPieces N n⟩ : (s : Shape) × (s.Idx → _))) _ (ix3 r h d) = _
  refine (concatenate_ofFn_apply (t := S128x8x128) (s₁ := S128x8x64) (2 : Fin 3) (rotPieces N) _ rfl 64 rfl (ix3 r h d)
    ⟨d.val / 64, by omega⟩ rfl (ix3 r h ⟨d.val % 64, by omega⟩) rfl (fun b hb => ?_)).trans ?_
  · match b with
    | ⟨0, _⟩ => rfl
    | ⟨1, _⟩ => rfl
    | ⟨2, _⟩ => exact absurd rfl hb
  · exact rotPieces_apply N r h _ _

/-! ## The stored payload -/

/-- THE KEY PAYLOAD at a block index `y`: `rope` of key head `y 2` of row `y 1` of the block, at lane `y 3`. -/
theorem payload_apply (P0 : FVec Ideal S128x6144 .f32) (P3 P4 P5 P6 : FVec Ideal S1x128 .f32) (y : S1x128x8x128.Idx) :
    k0_pay2 (F := Ideal) (k0_pay4 P0) (k0_pay5 P3) (k0_pay6 P4) (k0_pay7 P5) (k0_pay8 P6) (k0_pay10 P0) (Scalar.ofBits .f32 0x358637BD#32) y
      = rope (headOf P0 ⟨(y 1).val, (y 1).isLt⟩ ⟨(y 2).val, (y 2).isLt⟩) (fun k => P3 (laneOf k)) (fun k => P4 (laneOf k))
          (fun k => P5 (laneOf k)) (fun k => P6 (laneOf k)) ⟨(y 3).val, (y 3).isLt⟩ := by
  have h0 : (y 0).val < 1 := (y 0).isLt
  have h1 : (y 1).val < 128 := (y 1).isLt
  have h2 : (y 2).val < 8 := (y 2).isLt
  have h3 : (y 3).val < 128 := (y 3).isLt
  rw [scale_row, shift_row, cos_row, sin_row, heads_tree, stat_tree, rope_tree]
  refine (shapeCast_apply _ _ y (ix3 (⟨(y 1).val, h1⟩ : Fin 128) (⟨(y 2).val, h2⟩ : Fin 8) (⟨(y 3).val, h3⟩ : Fin 128)) ?_).trans ?_
  · rw [Shape.rowMajor_val_three, Shape.rowMajor_val_four]
    show ((y 1).val * 8 + (y 2).val) * 128 + (y 3).val = (((y 0).val * 128 + (y 1).val) * 8 + (y 2).val) * 128 + (y 3).val
    omega
  · show (normedVec (heads P0) (meanSq (sumSq (heads P0))) (Scalar.ofBits .f32 0x358637BD#32) P3 P4) (ix3 (⟨(y 1).val, h1⟩ : Fin 128) (⟨(y 2).val, h2⟩ : Fin 8) (⟨(y 3).val, h3⟩ : Fin 128)) * spread P5 (ix3 (⟨(y 1).val, h1⟩ : Fin 128) (⟨(y 2).val, h2⟩ : Fin 8) (⟨(y 3).val, h3⟩ : Fin 128))
        + rotated (normedVec (heads P0) (meanSq (sumSq (heads P0))) (Scalar.ofBits .f32 0x358637BD#32) P3 P4) (ix3 (⟨(y 1).val, h1⟩ : Fin 128) (⟨(y 2).val, h2⟩ : Fin 8) (⟨(y 3).val, h3⟩ : Fin 128)) * spread P6 (ix3 (⟨(y 1).val, h1⟩ : Fin 128) (⟨(y 2).val, h2⟩ : Fin 8) (⟨(y 3).val, h3⟩ : Fin 128)) = _
    rw [rotated_apply, normed_apply, spread_apply, spread_apply]
    simp only [normed_apply]
    rfl

end Cert.HeadRope.KernelKey

end
-- ==== Proof.InputBlocks.lean ====
/-
  What each input window's block holds, in terms of the argument arrays.

  The grid has 64 points. At point `t` the first window's block is rows 128·t … 128·t + 127 of the fused projection, all
  6144 columns. The other six input windows always stage the one block of a [1, 128] array, which the host made from a
  parameter vector by a reshape; so their block at lane `d` is lane `d` of that parameter. The index maps are decided
  once over the 64 points; a block's element sits at (block index × block size + its coordinate) on every axis.
-/
import proofs.«130383_j76587856822536_1_alg».proof.Proof.Gen.KernelIdeal.Frame
import Idealize.ShloMosaic.Lib.Pipeline.Value
import Idealize.ShloMosaic.Lib.StableHlo.Run
import Idealize.ShloMosaic.Lib.ValueIdx

noncomputable section

namespace Cert.HeadRope.Blocks

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-! ## The index maps, decided over the 64 grid points -/

/-- Window 0 (the fused projection) moves down one block of 128 rows per grid point. -/
theorem index0 : ∀ t : Fin cfg0.N, win0_0.index t (0 : Fin 2) = t.val ∧ win0_0.index t (1 : Fin 2) = 0 :=
  (by decide +kernel : ∀ t : Fin grid0.N, _)
/-- Window 1 always stages block (0, 0). -/
theorem index1 : ∀ t : Fin cfg0.N, win0_1.index t (0 : Fin 2) = 0 ∧ win0_1.index t (1 : Fin 2) = 0 :=
  (by decide +kernel : ∀ t : Fin grid0.N, _)
/-- Window 2 always stages block (0, 0). -/
theorem index2 : ∀ t : Fin cfg0.N, win0_2.index t (0 : Fin 2) = 0 ∧ win0_2.index t (1 : Fin 2) = 0 :=
  (by decide +kernel : ∀ t : Fin grid0.N, _)
/-- Window 3 always stages block (0, 0). -/
theorem index3 : ∀ t : Fin cfg0.N, win0_3.index t (0 : Fin 2) = 0 ∧ win0_3.index t (1 : Fin 2) = 0 :=
  (by decide +kernel : ∀ t : Fin grid0.N, _)
/-- Window 4 always stages block (0, 0). -/
theorem index4 : ∀ t : Fin cfg0.N, win0_4.index t (0 : Fin 2) = 0 ∧ win0_4.index t (1 : Fin 2) = 0 :=
  (by decide +kernel : ∀ t : Fin grid0.N, _)
/-- Window 5 always stages block (0, 0). -/
theorem index5 : ∀ t : Fin cfg0.N, win0_5.index t (0 : Fin 2) = 0 ∧ win0_5.index t (1 : Fin 2) = 0 :=
  (by decide +kernel : ∀ t : Fin grid0.N, _)
/-- Window 6 always stages block (0, 0). -/
theorem index6 : ∀ t : Fin cfg0.N, win0_6.index t (0 : Fin 2) = 0 ∧ win0_6.index t (1 : Fin 2) = 0 :=
  (by decide +kernel : ∀ t : Fin grid0.N, _)
/-- Output window 7 moves along its row axis with the grid point. -/
theorem index7 : ∀ t : Fin cfg0.N, win0_7.index t (0 : Fin 4) = 0 ∧ win0_7.index t (1 : Fin 4) = t.val ∧ win0_7.index t (2 : Fin 4) = 0 ∧ win0_7.index t (3 : Fin 4) = 0 :=
  (by decide +kernel : ∀ t : Fin grid0.N, _)
/-- Output window 8 moves along its row axis with the grid point. -/
theorem index8 : ∀ t : Fin cfg0.N, win0_8.index t (0 : Fin 4) = 0 ∧ win0_8.index t (1 : Fin 4) = t.val ∧ win0_8.index t (2 : Fin 4) = 0 ∧ win0_8.index t (3 : Fin 4) = 0 :=
  (by decide +kernel : ∀ t : Fin grid0.N, _)
/-- Output window 9 (the values) moves down one block of 128 rows per grid point. -/
theorem index9 : ∀ t : Fin cfg0.N, win0_9.index t (0 : Fin 2) = t.val ∧ win0_9.index t (1 : Fin 2) = 0 :=
  (by decide +kernel : ∀ t : Fin grid0.N, _)

/-! ## The fused projection's block -/

/-- Window 0's block at point `t`, at `x`: the fused projection at row 128·t + x 0, column x 1. -/
theorem proj_block (c : Dev nD) (t : Fin cfg0.N) (x : S128x6144.Idx) (k : S8192x6144.Idx)
    (hk0 : (k 0).val = t.val * 128 + (x 0).val) (hk1 : (k 1).val = (x 1).val) :
    (iblk m c 0 t : Vec Ideal S128x6144 .f32) x = (m ((c : Thread nD τ).loc main_arg0) : S8192x6144.Idx → Elt Ideal .f32) k := by
  have e0 : win0_0.index t (0 : Fin 2) = t.val := (index0 t).1
  have e1 : win0_0.index t (1 : Fin 2) = 0 := (index0 t).2
  unfold iblk
  rw [View.read_apply]
  show V m c main_arg0 _ = _
  rw [V_main_arg0]
  congr 1
  funext a; apply Fin.ext
  match a with
  | ⟨0, _⟩ => show win0_0.index t (0 : Fin 2) * 128 + 1 * (x 0).val = (k 0).val; rw [e0, hk0]; omega
  | ⟨1, _⟩ => show win0_0.index t (1 : Fin 2) * 6144 + 1 * (x 1).val = (k 1).val; rw [e1, hk1]; omega

/-! ## The parameter rows -/

/-- The array window 1 stages is the query scale viewed as one row of 128 lanes. -/
theorem q_scale_array (c : Dev nD) :
    (V m c main_v0 : S1x128.Idx → Elt Ideal .f32)
      = shapeCast S1x128 (m ((c : Thread nD τ).loc main_arg1) : S128.Idx → Elt Ideal .f32) shapeCasts_S128_S1x128 := by
  dsimp only [V, hostOps0]; after_results; rfl

/-- Window 1's block at any grid point, at lane `d`: lane `d` of the query scale. -/
theorem q_scale_row (c : Dev nD) (t : Fin cfg0.N) (d : Fin 128) :
    (iblk m c 1 t : Vec Ideal S1x128 .f32) (ix2 (0 : Fin 1) d)
      = (m ((c : Thread nD τ).loc main_arg1) : S128.Idx → Elt Ideal .f32) (ix1 d) := by
  have hd := d.isLt
  have e0 : win0_1.index t (0 : Fin 2) = 0 := (index1 t).1
  have e1 : win0_1.index t (1 : Fin 2) = 0 := (index1 t).2
  unfold iblk
  rw [View.read_apply]
  show V m c main_v0 _ = _
  rw [q_scale_array]
  refine shapeCast_apply _ _ _ (ix1 d) ?_
  rw [Shape.rowMajor_val_one, Shape.rowMajor_val_two]
  show d.val = (win0_1.index t (0 : Fin 2) * 1 + 1 * 0) * 128 + (win0_1.index t (1 : Fin 2) * 128 + 1 * d.val)
  rw [e0, e1]; omega

/-- The array window 2 stages is the query shift viewed as one row of 128 lanes. -/
theorem q_shift_array (c : Dev nD) :
    (V m c main_v1 : S1x128.Idx → Elt Ideal .f32)
      = shapeCast S1x128 (m ((c : Thread nD τ).loc main_arg3) : S128.Idx → Elt Ideal .f32) shapeCasts_S128_S1x128 := by
  dsimp only [V, hostOps0]; after_results; rfl

/-- Window 2's block at any grid point, at lane `d`: lane `d` of the query shift. -/
theorem q_shift_row (c : Dev nD) (t : Fin cfg0.N) (d : Fin 128) :
    (iblk m c 2 t : Vec Ideal S1x128 .f32) (ix2 (0 : Fin 1) d)
      = (m ((c : Thread nD τ).loc main_arg3) : S128.Idx → Elt Ideal .f32) (ix1 d) := by
  have hd := d.isLt
  have e0 : win0_2.index t (0 : Fin 2) = 0 := (index2 t).1
  have e1 : win0_2.index t (1 : Fin 2) = 0 := (index2 t).2
  unfold iblk
  rw [View.read_apply]
  show V m c main_v1 _ = _
  rw [q_shift_array]
  refine shapeCast_apply _ _ _ (ix1 d) ?_
  rw [Shape.rowMajor_val_one, Shape.rowMajor_val_two]
  show d.val = (win0_2.index t (0 : Fin 2) * 1 + 1 * 0) * 128 + (win0_2.index t (1 : Fin 2) * 128 + 1 * d.val)
  rw [e0, e1]; omega

/-- The array window 3 stages is the key scale viewed as one row of 128 lanes. -/
theorem k_scale_array (c : Dev nD) :
    (V m c main_v2 : S1x128.Idx → Elt Ideal .f32)
      = shapeCast S1x128 (m ((c : Thread nD τ).loc main_arg2) : S128.Idx → Elt Ideal .f32) shapeCasts_S128_S1x128 := by
  dsimp only [V, hostOps0]; after_results; rfl

/-- Window 3's block at any grid point, at lane `d`: lane `d` of the key scale. -/
theorem k_scale_row (c : Dev nD) (t : Fin cfg0.N) (d : Fin 128) :
    (iblk m c 3 t : Vec Ideal S1x128 .f32) (ix2 (0 : Fin 1) d)
      = (m ((c : Thread nD τ).loc main_arg2) : S128.Idx → Elt Ideal .f32) (ix1 d) := by
  have hd := d.isLt
  have e0 : win0_3.index t (0 : Fin 2) = 0 := (index3 t).1
  have e1 : win0_3.index t (1 : Fin 2) = 0 := (index3 t).2
  unfold iblk
  rw [View.read_apply]
  show V m c main_v2 _ = _
  rw [k_scale_array]
  refine shapeCast_apply _ _ _ (ix1 d) ?_
  rw [Shape.rowMajor_val_one, Shape.rowMajor_val_two]
  show d.val = (win0_3.index t (0 : Fin 2) * 1 + 1 * 0) * 128 + (win0_3.index t (1 : Fin 2) * 128 + 1 * d.val)
  rw [e0, e1]; omega

/-- The array window 4 stages is the key shift viewed as one row of 128 lanes. -/
theorem k_shift_array (c : Dev nD) :
    (V m c main_v3 : S1x128.Idx → Elt Ideal .f32)
      = shapeCast S1x128 (m ((c : Thread nD τ).loc main_arg4) : S128.Idx → Elt Ideal .f32) shapeCasts_S128_S1x128 := by
  dsimp only [V, hostOps0]; after_results; rfl

/-- Window 4's block at any grid point, at lane `d`: lane `d` of the key shift. -/
theorem k_shift_row (c : Dev nD) (t : Fin cfg0.N) (d : Fin 128) :
    (iblk m c 4 t : Vec Ideal S1x128 .f32) (ix2 (0 : Fin 1) d)
      = (m ((c : Thread nD τ).loc main_arg4) : S128.Idx → Elt Ideal .f32) (ix1 d) := by
  have hd := d.isLt
  have e0 : win0_4.index t (0 : Fin 2) = 0 := (index4 t).1
  have e1 : win0_4.index t (1 : Fin 2) = 0 := (index4 t).2
  unfold iblk
  rw [View.read_apply]
  show V m c main_v3 _ = _
  rw [k_shift_array]
  refine shapeCast_apply _ _ _ (ix1 d) ?_
  rw [Shape.rowMajor_val_one, Shape.rowMajor_val_two]
  show d.val = (win0_4.index t (0 : Fin 2) * 1 + 1 * 0) * 128 + (win0_4.index t (1 : Fin 2) * 128 + 1 * d.val)
  rw [e0, e1]; omega

/-- The array window 5 stages is the cosines viewed as one row of 128 lanes. -/
theorem cosines_array (c : Dev nD) :
    (V m c main_v4 : S1x128.Idx → Elt Ideal .f32)
      = shapeCast S1x128 (m ((c : Thread nD τ).loc main_arg5) : S1x1x1x128.Idx → Elt Ideal .f32) shapeCasts_S1x1x1x128_S1x128 := by
  dsimp only [V, hostOps0]; after_results; rfl

/-- Window 5's block at any grid point, at lane `d`: lane `d` of the cosines. -/
theorem cosines_row (c : Dev nD) (t : Fin cfg0.N) (d : Fin 128) :
    (iblk m c 5 t : Vec Ideal S1x128 .f32) (ix2 (0 : Fin 1) d)
      = (m ((c : Thread nD τ).loc main_arg5) : S1x1x1x128.Idx → Elt Ideal .f32) (ix4 (0 : Fin 1) (0 : Fin 1) (0 : Fin 1) d) := by
  have hd := d.isLt
  have e0 : win0_5.index t (0 : Fin 2) = 0 := (index5 t).1
  have e1 : win0_5.index t (1 : Fin 2) = 0 := (index5 t).2
  unfold iblk
  rw [View.read_apply]
  show V m c main_v4 _ = _
  rw [cosines_array]
  refine shapeCast_apply _ _ _ (ix4 (0 : Fin 1) (0 : Fin 1) (0 : Fin 1) d) ?_
  rw [Shape.rowMajor_val_four, Shape.rowMajor_val_two]
  show ((0 * 1 + 0) * 1 + 0) * 128 + d.val = (win0_5.index t (0 : Fin 2) * 1 + 1 * 0) * 128 + (win0_5.index t (1 : Fin 2) * 128 + 1 * d.val)
  rw [e0, e1]; omega

/-- The array window 6 stages is the sines viewed as one row of 128 lanes. -/
theorem sines_array (c : Dev nD) :
    (V m c main_v5 : S1x128.Idx → Elt Ideal .f32)
      = shapeCast S1x128 (m ((c : Thread nD τ).loc main_arg6) : S1x1x1x128.Idx → Elt Ideal .f32) shapeCasts_S1x1x1x128_S1x128 := by
  dsimp only [V, hostOps0]; after_results; rfl

/-- Window 6's block at any grid point, at lane `d`: lane `d` of the sines. -/
theorem sines_row (c : Dev nD) (t : Fin cfg0.N) (d : Fin 128) :
    (iblk m c 6 t : Vec Ideal S1x128 .f32) (ix2 (0 : Fin 1) d)
      = (m ((c : Thread nD τ).loc main_arg6) : S1x1x1x128.Idx → Elt Ideal .f32) (ix4 (0 : Fin 1) (0 : Fin 1) (0 : Fin 1) d) := by
  have hd := d.isLt
  have e0 : win0_6.index t (0 : Fin 2) = 0 := (index6 t).1
  have e1 : win0_6.index t (1 : Fin 2) = 0 := (index6 t).2
  unfold iblk
  rw [View.read_apply]
  show V m c main_v5 _ = _
  rw [sines_array]
  refine shapeCast_apply _ _ _ (ix4 (0 : Fin 1) (0 : Fin 1) (0 : Fin 1) d) ?_
  rw [Shape.rowMajor_val_four, Shape.rowMajor_val_two]
  show ((0 * 1 + 0) * 1 + 0) * 128 + d.val = (win0_6.index t (0 : Fin 2) * 1 + 1 * 0) * 128 + (win0_6.index t (1 : Fin 2) * 128 + 1 * d.val)
  rw [e0, e1]; omega

end Cert.HeadRope.Blocks

end
-- ==== Proof.KernelValue.lean ====
/-
  What the kernel's three result arrays hold after its run.

  The run visits 64 grid points; at point `t` the body receives rows 128·t … 128·t + 127 of the fused projection and the six
  parameter rows, and each output window writes its block back: rows 128·t … 128·t + 127 of the rotated queries, of the
  rotated keys and of the values. By the payload lemmas a written-back block is the matching block of `qOut`, `kOut`,
  `vOut` of the ARGUMENT arrays (a head's entry depends on its own row only, and a block holds whole rows). The 64 blocks
  tile each array — row `r` belongs to point `r / 128` — so each array ends holding that function everywhere.
-/
import proofs.«130383_j76587856822536_1_alg».proof.Proof.KernelIdealValue
import proofs.«130383_j76587856822536_1_alg».proof.Proof.KernelQuery
import proofs.«130383_j76587856822536_1_alg».proof.Proof.KernelKey
import proofs.«130383_j76587856822536_1_alg».proof.Proof.InputBlocks

noncomputable section

namespace Cert.HeadRope.KernelValue

open Cert.KernelIdeal Cert.KernelIdeal.Gen Cert.KernelIdeal.ValueP Cert.HeadRope Cert.HeadRope.Blocks
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## Output window 7: the rotated queries -/

/-- WHAT POINT `t` WRITES BACK to the queries' array is block `t` of `qOut` of the argument arrays: rows 128·t … 128·t + 127. -/
theorem flushed_queries (c : Dev nD) (t : Fin cfg0.N) :
    (dats m 0 c).flushed 7 t = ((cfg0.win 7).blk t).view.read (Elt Ideal) (qOut (m ((c : Thread nD τ).loc main_arg0)) (m ((c : Thread nD τ).loc main_arg1)) (m ((c : Thread nD τ).loc main_arg3)) (m ((c : Thread nD τ).loc main_arg5)) (m ((c : Thread nD τ).loc main_arg6))) := by
  have hN : cfg0.N = 64 := N_0
  have ht : t.val < 64 := hN ▸ t.isLt
  obtain ⟨f0, f1, f2, f3⟩ := index7 t
  rw [flushed7]
  unfold out0_7
  rw [View.canon_unit_zero hz4]
  simp only [View.ld_unit_zero (S := S128x6144) hz2, View.ld_unit_zero (S := S1x128) hz2]
  funext y
  have h0 : (y 0).val < 1 := (y 0).isLt
  have h1 : (y 1).val < 128 := (y 1).isLt
  have h2 : (y 2).val < 32 := (y 2).isLt
  have h3 : (y 3).val < 128 := (y 3).isLt
  rw [View.read_apply]
  have E1 : ((((cfg0.win 7).blk t).view.emb y) 1).val = t.val * 128 + (y 1).val := by
    show win0_7.index t (1 : Fin 4) * 128 + 1 * (y 1).val = _; rw [f1]; omega
  have E2 : ((((cfg0.win 7).blk t).view.emb y) 2).val = (y 2).val := by
    show win0_7.index t (2 : Fin 4) * 32 + 1 * (y 2).val = _; rw [f2]; omega
  have E3 : ((((cfg0.win 7).blk t).view.emb y) 3).val = (y 3).val := by
    show win0_7.index t (3 : Fin 4) * 128 + 1 * (y 3).val = _; rw [f3]; omega
  refine Eq.trans ?_ (qOut_at _ _ _ _ _ _ (⟨t.val * 128 + (y 1).val, by omega⟩ : Fin 8192) (⟨(y 2).val, h2⟩ : Fin 32) (⟨(y 3).val, h3⟩ : Fin 128) E1 E2 E3).symm
  refine (KernelQuery.payload_apply (iblk m c 0 t) (iblk m c 1 t) (iblk m c 2 t) (iblk m c 5 t) (iblk m c 6 t) y).trans ?_
  have hx : KernelQuery.headOf (iblk m c 0 t) ⟨(y 1).val, (y 1).isLt⟩ ⟨(y 2).val, (y 2).isLt⟩
      = fun k => ((m ((c : Thread nD τ).loc main_arg0)) : S8192x6144.Idx → Elt Ideal .f32) (qAt (⟨t.val * 128 + (y 1).val, by omega⟩ : Fin 8192) (⟨(y 2).val, h2⟩ : Fin 32) k) :=
    funext fun k => proj_block m c t _ _ rfl rfl
  have hw : (fun k => (iblk m c 1 t : FVec Ideal S1x128 .f32) (KernelQuery.laneOf k)) = fun k => ((m ((c : Thread nD τ).loc main_arg1)) : S128.Idx → Elt Ideal .f32) (ix1 k) :=
    funext fun k => q_scale_row m c t k
  have hb : (fun k => (iblk m c 2 t : FVec Ideal S1x128 .f32) (KernelQuery.laneOf k)) = fun k => ((m ((c : Thread nD τ).loc main_arg3)) : S128.Idx → Elt Ideal .f32) (ix1 k) :=
    funext fun k => q_shift_row m c t k
  have hc : (fun k => (iblk m c 5 t : FVec Ideal S1x128 .f32) (KernelQuery.laneOf k)) = fun k => ((m ((c : Thread nD τ).loc main_arg5)) : S1x1x1x128.Idx → Elt Ideal .f32) (ix4 0 0 0 k) :=
    funext fun k => cosines_row m c t k
  have hs : (fun k => (iblk m c 6 t : FVec Ideal S1x128 .f32) (KernelQuery.laneOf k)) = fun k => ((m ((c : Thread nD τ).loc main_arg6)) : S1x1x1x128.Idx → Elt Ideal .f32) (ix4 0 0 0 k) :=
    funext fun k => sines_row m c t k
  rw [hx, hw, hb, hc, hs]

/-- An index of the queries' array is in point `t`'s block iff every coordinate is in the block's range on its axis. -/
theorem mem_blk_queries (t : Fin cfg0.N) (i : S1x8192x32x128.Idx) :
    i ∈ ((cfg0.win 7).blk t).view.set ↔ ∀ a : Fin 4, win0_7.index t a * S1x128x32x128.size a ≤ (i a).val ∧ (i a).val < win0_7.index t a * S1x128x32x128.size a + S1x128x32x128.size a := by
  show i ∈ ((View.whole main_v6_0).slice (win0_7.rect t)).set ↔ _
  rw [View.set_slice_whole, Rect.mem_set_unit]
  exact Iff.rfl

/-- The blocks cover the array: row `r` is in the block of point `r / 128`. -/
theorem cover_queries (i : S1x8192x32x128.Idx) : ∃ t : Fin cfg0.N, (cfg0.win 7).flush t = true ∧ i ∈ ((cfg0.win 7).blk t).view.set := by
  have hN : cfg0.N = 64 := N_0
  have h0 : (i 0).val < 1 := (i 0).isLt
  have h1 : (i 1).val < 8192 := (i 1).isLt
  have h2 : (i 2).val < 32 := (i 2).isLt
  have h3 : (i 3).val < 128 := (i 3).isLt
  obtain ⟨t, ht⟩ : ∃ t : Fin cfg0.N, t.val = (i 1).val / 128 := ⟨⟨(i 1).val / 128, by rw [hN]; omega⟩, rfl⟩
  obtain ⟨f0, f1, f2, f3⟩ := index7 t
  refine ⟨t, flush0_7 t, ?_⟩
  rw [mem_blk_queries]
  intro a
  match a with
  | ⟨0, _⟩ => show win0_7.index t (0 : Fin 4) * 1 ≤ (i 0).val ∧ (i 0).val < win0_7.index t (0 : Fin 4) * 1 + 1; rw [f0]; omega
  | ⟨1, _⟩ => show win0_7.index t (1 : Fin 4) * 128 ≤ (i 1).val ∧ (i 1).val < win0_7.index t (1 : Fin 4) * 128 + 128; rw [f1]; omega
  | ⟨2, _⟩ => show win0_7.index t (2 : Fin 4) * 32 ≤ (i 2).val ∧ (i 2).val < win0_7.index t (2 : Fin 4) * 32 + 32; rw [f2]; omega
  | ⟨3, _⟩ => show win0_7.index t (3 : Fin 4) * 128 ≤ (i 3).val ∧ (i 3).val < win0_7.index t (3 : Fin 4) * 128 + 128; rw [f3]; omega

/-- THE QUERIES' ARRAY after the run is `qOut` of the argument arrays. -/
theorem final_queries (c : Dev nD) : (dats m 0 c).arrAt 7 cfg0.N = qOut (m ((c : Thread nD τ).loc main_arg0)) (m ((c : Thread nD τ).loc main_arg1)) (m ((c : Thread nD τ).loc main_arg3)) (m ((c : Thread nD τ).loc main_arg5)) (m ((c : Thread nD τ).loc main_arg6)) :=
  (dats m 0 c).arrAt_eq_of_cover 7 (qOut (m ((c : Thread nD τ).loc main_arg0)) (m ((c : Thread nD τ).loc main_arg1)) (m ((c : Thread nD τ).loc main_arg3)) (m ((c : Thread nD τ).loc main_arg5)) (m ((c : Thread nD τ).loc main_arg6))) (fun t _ => flushed_queries m c t) cover_queries

/-! ## Output window 8: the rotated keys -/

/-- WHAT POINT `t` WRITES BACK to the keys' array is block `t` of `kOut` of the argument arrays: rows 128·t … 128·t + 127. -/
theorem flushed_keys (c : Dev nD) (t : Fin cfg0.N) :
    (dats m 0 c).flushed 8 t = ((cfg0.win 8).blk t).view.read (Elt Ideal) (kOut (m ((c : Thread nD τ).loc main_arg0)) (m ((c : Thread nD τ).loc main_arg2)) (m ((c : Thread nD τ).loc main_arg4)) (m ((c : Thread nD τ).loc main_arg5)) (m ((c : Thread nD τ).loc main_arg6))) := by
  have hN : cfg0.N = 64 := N_0
  have ht : t.val < 64 := hN ▸ t.isLt
  obtain ⟨f0, f1, f2, f3⟩ := index8 t
  rw [flushed8]
  unfold out0_8
  rw [View.canon_unit_zero hz4]
  simp only [View.ld_unit_zero (S := S128x6144) hz2, View.ld_unit_zero (S := S1x128) hz2]
  funext y
  have h0 : (y 0).val < 1 := (y 0).isLt
  have h1 : (y 1).val < 128 := (y 1).isLt
  have h2 : (y 2).val < 8 := (y 2).isLt
  have h3 : (y 3).val < 128 := (y 3).isLt
  rw [View.read_apply]
  have E1 : ((((cfg0.win 8).blk t).view.emb y) 1).val = t.val * 128 + (y 1).val := by
    show win0_8.index t (1 : Fin 4) * 128 + 1 * (y 1).val = _; rw [f1]; omega
  have E2 : ((((cfg0.win 8).blk t).view.emb y) 2).val = (y 2).val := by
    show win0_8.index t (2 : Fin 4) * 8 + 1 * (y 2).val = _; rw [f2]; omega
  have E3 : ((((cfg0.win 8).blk t).view.emb y) 3).val = (y 3).val := by
    show win0_8.index t (3 : Fin 4) * 128 + 1 * (y 3).val = _; rw [f3]; omega
  refine Eq.trans ?_ (kOut_at _ _ _ _ _ _ (⟨t.val * 128 + (y 1).val, by omega⟩ : Fin 8192) (⟨(y 2).val, h2⟩ : Fin 8) (⟨(y 3).val, h3⟩ : Fin 128) E1 E2 E3).symm
  refine (KernelKey.payload_apply (iblk m c 0 t) (iblk m c 3 t) (iblk m c 4 t) (iblk m c 5 t) (iblk m c 6 t) y).trans ?_
  have hx : KernelKey.headOf (iblk m c 0 t) ⟨(y 1).val, (y 1).isLt⟩ ⟨(y 2).val, (y 2).isLt⟩
      = fun k => ((m ((c : Thread nD τ).loc main_arg0)) : S8192x6144.Idx → Elt Ideal .f32) (kAt (⟨t.val * 128 + (y 1).val, by omega⟩ : Fin 8192) (⟨(y 2).val, h2⟩ : Fin 8) k) :=
    funext fun k => proj_block m c t _ _ rfl rfl
  have hw : (fun k => (iblk m c 3 t : FVec Ideal S1x128 .f32) (KernelKey.laneOf k)) = fun k => ((m ((c : Thread nD τ).loc main_arg2)) : S128.Idx → Elt Ideal .f32) (ix1 k) :=
    funext fun k => k_scale_row m c t k
  have hb : (fun k => (iblk m c 4 t : FVec Ideal S1x128 .f32) (KernelKey.laneOf k)) = fun k => ((m ((c : Thread nD τ).loc main_arg4)) : S128.Idx → Elt Ideal .f32) (ix1 k) :=
    funext fun k => k_shift_row m c t k
  have hc : (fun k => (iblk m c 5 t : FVec Ideal S1x128 .f32) (KernelKey.laneOf k)) = fun k => ((m ((c : Thread nD τ).loc main_arg5)) : S1x1x1x128.Idx → Elt Ideal .f32) (ix4 0 0 0 k) :=
    funext fun k => cosines_row m c t k
  have hs : (fun k => (iblk m c 6 t : FVec Ideal S1x128 .f32) (KernelKey.laneOf k)) = fun k => ((m ((c : Thread nD τ).loc main_arg6)) : S1x1x1x128.Idx → Elt Ideal .f32) (ix4 0 0 0 k) :=
    funext fun k => sines_row m c t k
  rw [hx, hw, hb, hc, hs]

/-- An index of the keys' array is in point `t`'s block iff every coordinate is in the block's range on its axis. -/
theorem mem_blk_keys (t : Fin cfg0.N) (i : S1x8192x8x128.Idx) :
    i ∈ ((cfg0.win 8).blk t).view.set ↔ ∀ a : Fin 4, win0_8.index t a * S1x128x8x128.size a ≤ (i a).val ∧ (i a).val < win0_8.index t a * S1x128x8x128.size a + S1x128x8x128.size a := by
  show i ∈ ((View.whole main_v6_1).slice (win0_8.rect t)).set ↔ _
  rw [View.set_slice_whole, Rect.mem_set_unit]
  exact Iff.rfl

/-- The blocks cover the array: row `r` is in the block of point `r / 128`. -/
theorem cover_keys (i : S1x8192x8x128.Idx) : ∃ t : Fin cfg0.N, (cfg0.win 8).flush t = true ∧ i ∈ ((cfg0.win 8).blk t).view.set := by
  have hN : cfg0.N = 64 := N_0
  have h0 : (i 0).val < 1 := (i 0).isLt
  have h1 : (i 1).val < 8192 := (i 1).isLt
  have h2 : (i 2).val < 8 := (i 2).isLt
  have h3 : (i 3).val < 128 := (i 3).isLt
  obtain ⟨t, ht⟩ : ∃ t : Fin cfg0.N, t.val = (i 1).val / 128 := ⟨⟨(i 1).val / 128, by rw [hN]; omega⟩, rfl⟩
  obtain ⟨f0, f1, f2, f3⟩ := index8 t
  refine ⟨t, flush0_8 t, ?_⟩
  rw [mem_blk_keys]
  intro a
  match a with
  | ⟨0, _⟩ => show win0_8.index t (0 : Fin 4) * 1 ≤ (i 0).val ∧ (i 0).val < win0_8.index t (0 : Fin 4) * 1 + 1; rw [f0]; omega
  | ⟨1, _⟩ => show win0_8.index t (1 : Fin 4) * 128 ≤ (i 1).val ∧ (i 1).val < win0_8.index t (1 : Fin 4) * 128 + 128; rw [f1]; omega
  | ⟨2, _⟩ => show win0_8.index t (2 : Fin 4) * 8 ≤ (i 2).val ∧ (i 2).val < win0_8.index t (2 : Fin 4) * 8 + 8; rw [f2]; omega
  | ⟨3, _⟩ => show win0_8.index t (3 : Fin 4) * 128 ≤ (i 3).val ∧ (i 3).val < win0_8.index t (3 : Fin 4) * 128 + 128; rw [f3]; omega

/-- THE KEYS' ARRAY after the run is `kOut` of the argument arrays. -/
theorem final_keys (c : Dev nD) : (dats m 0 c).arrAt 8 cfg0.N = kOut (m ((c : Thread nD τ).loc main_arg0)) (m ((c : Thread nD τ).loc main_arg2)) (m ((c : Thread nD τ).loc main_arg4)) (m ((c : Thread nD τ).loc main_arg5)) (m ((c : Thread nD τ).loc main_arg6)) :=
  (dats m 0 c).arrAt_eq_of_cover 8 (kOut (m ((c : Thread nD τ).loc main_arg0)) (m ((c : Thread nD τ).loc main_arg2)) (m ((c : Thread nD τ).loc main_arg4)) (m ((c : Thread nD τ).loc main_arg5)) (m ((c : Thread nD τ).loc main_arg6))) (fun t _ => flushed_keys m c t) cover_keys

/-! ## Output window 9: the values -/

/-- The value payload at `y`: the block at row `y 0`, column 5120 + y 1. -/
theorem values_apply (P0 : FVec Ideal S128x6144 .f32) (y : S128x1024.Idx) :
    k0_pay3 (F := Ideal) P0 y = P0 (ix2 (⟨(y 0).val, (y 0).isLt⟩ : Fin 128) (⟨5120 + (y 1).val, by have h : (y 1).val < 1024 := (y 1).isLt; show 5120 + (y 1).val < 6144; omega⟩ : Fin 6144)) :=
  extractStridedSlice_apply ![0, 5120] P0 slices_S128x6144_o0_5120_S128x1024 y _ (fun a => match a with
    | ⟨0, _⟩ => by show (y 0).val = 0 + (y 0).val; omega
    | ⟨1, _⟩ => by show 5120 + (y 1).val = 5120 + (y 1).val; rfl)

/-- WHAT POINT `t` WRITES BACK to the values' array is block `t` of `vOut` of the fused projection. -/
theorem flushed_values (c : Dev nD) (t : Fin cfg0.N) :
    (dats m 0 c).flushed 9 t = ((cfg0.win 9).blk t).view.read (Elt Ideal) (vOut (m ((c : Thread nD τ).loc main_arg0))) := by
  have hN : cfg0.N = 64 := N_0
  have ht : t.val < 64 := hN ▸ t.isLt
  obtain ⟨f0, f1⟩ := index9 t
  rw [flushed9]
  unfold out0_9
  rw [View.canon_unit_zero hz2]
  simp only [View.ld_unit_zero (S := S128x6144) hz2]
  funext y
  have h0 : (y 0).val < 128 := (y 0).isLt
  have h1 : (y 1).val < 1024 := (y 1).isLt
  rw [View.read_apply]
  have E0 : ((((cfg0.win 9).blk t).view.emb y) 0).val = t.val * 128 + (y 0).val := by
    show win0_9.index t (0 : Fin 2) * 128 + 1 * (y 0).val = _; rw [f0]; omega
  have E1 : ((((cfg0.win 9).blk t).view.emb y) 1).val = (y 1).val := by
    show win0_9.index t (1 : Fin 2) * 1024 + 1 * (y 1).val = _; rw [f1]; omega
  refine Eq.trans ?_ (vOut_at _ _ (⟨t.val * 128 + (y 0).val, by omega⟩ : Fin 8192) (⟨(y 1).val, h1⟩ : Fin 1024) E0 E1).symm
  refine (values_apply (iblk m c 0 t) y).trans ?_
  exact proj_block m c t _ _ rfl rfl

/-- An index of the values' array is in point `t`'s block iff every coordinate is in the block's range on its axis. -/
theorem mem_blk_values (t : Fin cfg0.N) (i : S8192x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v6_2).slice (win0_9.rect t)).set ↔ _
  rw [View.set_slice_whole, Rect.mem_set_unit]
  exact Iff.rfl

/-- The blocks cover the array: row `r` is in the block of point `r / 128`. -/
theorem cover_values (i : S8192x1024.Idx) : ∃ t : Fin cfg0.N, (cfg0.win 9).flush t = true ∧ i ∈ ((cfg0.win 9).blk t).view.set := by
  have hN : cfg0.N = 64 := N_0
  have h0 : (i 0).val < 8192 := (i 0).isLt
  have h1 : (i 1).val < 1024 := (i 1).isLt
  obtain ⟨t, ht⟩ : ∃ t : Fin cfg0.N, t.val = (i 0).val / 128 := ⟨⟨(i 0).val / 128, by rw [hN]; omega⟩, rfl⟩
  obtain ⟨f0, f1⟩ := index9 t
  refine ⟨t, flush0_9 t, ?_⟩
  rw [mem_blk_values]
  intro a
  match a with
  | ⟨0, _⟩ => show win0_9.index t (0 : Fin 2) * 128 ≤ (i 0).val ∧ (i 0).val < win0_9.index t (0 : Fin 2) * 128 + 128; rw [f0]; omega
  | ⟨1, _⟩ => show win0_9.index t (1 : Fin 2) * 1024 ≤ (i 1).val ∧ (i 1).val < win0_9.index t (1 : Fin 2) * 1024 + 1024; rw [f1]; omega

/-- THE VALUES' ARRAY after the run is `vOut` of the fused projection. -/
theorem final_values (c : Dev nD) : (dats m 0 c).arrAt 9 cfg0.N = vOut (m ((c : Thread nD τ).loc main_arg0)) :=
  (dats m 0 c).arrAt_eq_of_cover 9 (vOut (m ((c : Thread nD τ).loc main_arg0))) (fun t _ => flushed_values m c t) cover_values

/-! ## The run, read -/

/-- The kernel's run with every result array at its function of the argument arrays, the arguments unchanged. -/
theorem run : θ_run defs (onTc (τ := τ) (main (F := Ideal))) ⟨m, fun _ => 0, ρ⟩ fun r => ∀ c : Dev nD,
      r.2.mem ((c : Thread nD τ).loc main_v6_0) = qOut (m ((c : Thread nD τ).loc main_arg0)) (m ((c : Thread nD τ).loc main_arg1)) (m ((c : Thread nD τ).loc main_arg3)) (m ((c : Thread nD τ).loc main_arg5)) (m ((c : Thread nD τ).loc main_arg6))
      ∧ r.2.mem ((c : Thread nD τ).loc main_v6_1) = kOut (m ((c : Thread nD τ).loc main_arg0)) (m ((c : Thread nD τ).loc main_arg2)) (m ((c : Thread nD τ).loc main_arg4)) (m ((c : Thread nD τ).loc main_arg5)) (m ((c : Thread nD τ).loc main_arg6))
      ∧ r.2.mem ((c : Thread nD τ).loc main_v6_2) = vOut (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_queries m c), (h c).2.1.trans (final_keys m c),
      (h c).2.2.1.trans (final_values m c), (h c).2.2.2⟩)
    (run_blocks m ρ)

end Cert.HeadRope.KernelValue

end
-- ==== Proof.RefQuery.lean ====
/-
  The reference program's first result is `qOut` of its arguments.

  The reference slices the 4096 query columns off the fused projection, views them as [1, 8192, 32, 128], normalises every
  head by its root mean square, scales, shifts, and applies the rotary embedding by concatenating the negated upper half of
  each head with its lower half. Stage by stage (the generated read-at-an-index lemmas), entry (0, r, h, d) of the result
  depends on row `r`, columns 128·h … 128·h + 127 of the fused projection, and on lane `d` (and its partner lane) of the
  four parameter vectors: exactly `rope` of that head.
-/
import proofs.«130383_j76587856822536_1_alg».proof.Proof.Gen.ReferenceIdeal.Read
import proofs.«130383_j76587856822536_1_alg».proof.Proof.RopeSpec

noncomputable section

namespace Cert.HeadRope.RefQuery

open Cert.ReferenceIdeal Cert.ReferenceIdeal.Read Cert.HeadRope Idealize.ShloMosaic Idealize.ShloMosaic.ValueIdx

/-- The index of the [1, 8192, 32, 128] array that agrees with `i` except on the lane axis, where it is `d`. -/
abbrev lane (i : S1x8192x32x128.Idx) (d : Fin 128) : S1x8192x32x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨d.val, d.isLt⟩

/-- The index of a half-width [1, 8192, 32, 64] piece under `i`, at position `e` of the piece. -/
abbrev half (i : S1x8192x32x128.Idx) (e : Fin 64) : S1x8192x32x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨e.val, e.isLt⟩

variable (X : (⟨S8192x6144, .f32⟩ : BufTy).Contents (Elt Ideal)) (W B : (⟨S128, .f32⟩ : BufTy).Contents (Elt Ideal))
  (C S : (⟨S1x1x1x128, .f32⟩ : BufTy).Contents (Elt Ideal))

/-- The head a result index belongs to: row `i 1`, query head `i 2` of the fused projection. -/
abbrev headOf (i : S1x8192x32x128.Idx) : Fin 128 → EReal :=
  fun k => X (qAt ⟨(i 1).val, (i 1).isLt⟩ ⟨(i 2).val, (i 2).isLt⟩ k)

/-- The normalised, scaled and shifted queries (the stage before the rotary embedding) at an index: `normed` of the head. -/
theorem normed_stage (i : S1x8192x32x128.Idx) :
    val_main_v20 (F := Ideal) X W B i = normed (headOf X i) (fun k => W (ix1 k)) (fun k => B (ix1 k)) ⟨(i 3).val, (i 3).isLt⟩ := by
  have h0 : (i 0).val < 1 := (i 0).isLt
  have h1 : (i 1).val < 8192 := (i 1).isLt
  have h2 : (i 2).val < 32 := (i 2).isLt
  have h3 : (i 3).val < 128 := (i 3).isLt
  -- the entry itself: row i 1, column 128 · i 2 + i 3
  have ex : idx_main_v0 (idx_main_v3 i) = qAt ⟨(i 1).val, (i 1).isLt⟩ ⟨(i 2).val, (i 2).isLt⟩ ⟨(i 3).val, (i 3).isLt⟩ := by
    funext a; apply Fin.ext
    match a with
    | ⟨0, _⟩ => show ((((i 0).val * 8192 + (i 1).val) * 32 + (i 2).val) * 128 + (i 3).val) / 4096 = (i 1).val; omega
    | ⟨1, _⟩ => show ((((i 0).val * 8192 + (i 1).val) * 32 + (i 2).val) * 128 + (i 3).val) % 4096 = (i 2).val * 128 + (i 3).val; omega
  -- the k-th summand of the head's sum of squares: row i 1, column 128 · i 2 + k
  have es : ∀ k : Fin 128, idx_main_v0 (idx_main_v3 (idx_main_v6 (idx_main_v7 (idx_main_v13 i)) k))
      = qAt ⟨(i 1).val, (i 1).isLt⟩ ⟨(i 2).val, (i 2).isLt⟩ k := by
    intro k
    have hk : k.val < 128 := k.isLt
    funext a; apply Fin.ext
    match a with
    | ⟨0, _⟩ => show (((0 * 8192 + (i 1).val) * 32 + (i 2).val) * 128 + k.val) / 4096 = (i 1).val; omega
    | ⟨1, _⟩ => show (((0 * 8192 + (i 1).val) * 32 + (i 2).val) * 128 + k.val) % 4096 = (i 2).val * 128 + k.val; omega
  have ew : idx_main_v15 (idx_main_v16 i) = ix1 ⟨(i 3).val, (i 3).isLt⟩ := by
    funext a; apply Fin.ext
    match a with
    | ⟨0, _⟩ => rfl
  have eb : idx_main_v18 (idx_main_v19 i) = ix1 ⟨(i 3).val, (i 3).isLt⟩ := by
    funext a; apply Fin.ext
    match a with
    | ⟨0, _⟩ => rfl
  simp only [val_main_v20_apply, val_main_v17_apply, val_main_v14_apply, val_main_v13_apply, val_main_v12_apply,
    val_main_v11_apply, val_main_v9_apply, val_main_v7_apply, val_main_v6_apply, val_main_v5_apply, val_main_v3_apply,
    val_main_v0_apply, val_main_v8_apply, val_main_cst_0_apply, val_main_v10_apply, val_main_cst_1_apply, val_main_cst_apply,
    val_main_v16_apply, val_main_v15_apply, val_main_v19_apply, val_main_v18_apply, ex, es, ew, eb,
    Ideal.addf_def, Ideal.mulf_def, Ideal.hostDivf_def, Ideal.hostUnary_rsqrt_def, Ideal.ofBits_def, zero_add_eq]
  rfl

/-- The two pieces the reference concatenates along the lane axis: the negated upper half of every head, then its lower half. -/
abbrev pieces : Fin 2 → (S1x8192x32x64.Idx → Elt Ideal .f32) := fun n => match n with
  | ⟨0, _⟩ => val_main_v41 (F := Ideal) X W B
  | ⟨1, _⟩ => val_main_v39 (F := Ideal) X W B

/-- Piece `n` at position `e` under `i` is half `n` of the normalised head `i` belongs to. -/
theorem pieces_apply (i : S1x8192x32x128.Idx) (n : Fin 2) (e : Fin 64) :
    pieces X W B n (half i e) = halves (fun d => val_main_v20 (F := Ideal) X W B (lane i d)) n e := by
  have he : e.val < 64 := e.isLt
  match n with
  | ⟨0, _⟩ =>
    have e40 : idx_main_v40 (half i e) = lane i ⟨64 + e.val, by omega⟩ := by
      funext a; apply Fin.ext
      match a with
      | ⟨0, _⟩ => rfl
      | ⟨1, _⟩ => rfl
      | ⟨2, _⟩ => rfl
      | ⟨3, _⟩ => rfl
    show val_main_v41 (F := Ideal) X W B (half i e) = -(val_main_v20 (F := Ideal) X W B (lane i ⟨64 + e.val, _⟩))
    rw [val_main_v41_apply, val_main_v40_apply, Ideal.hostNegf_def, Ideal.negf_def, e40]
  | ⟨1, _⟩ =>
    have e39 : idx_main_v39 (half i e) = lane i ⟨e.val, by omega⟩ := by
      funext a; apply Fin.ext
      match a with
      | ⟨0, _⟩ => rfl
      | ⟨1, _⟩ => rfl
      | ⟨2, _⟩ => rfl
      | ⟨3, _⟩ => rfl
    show val_main_v39 (F := Ideal) X W B (half i e) = val_main_v20 (F := Ideal) X W B (lane i ⟨e.val, _⟩)
    rw [val_main_v39_apply, e39]

/-- The concatenated stage at `i`: the rotate-half partner of lane `i 3` in the normalised head `i` belongs to. -/
theorem rotated_stage (i : S1x8192x32x128.Idx) :
    val_main_v42 (F := Ideal) X W B i
      = partner (fun d => val_main_v20 (F := Ideal) X W B (lane i d)) ⟨(i 3).val, (i 3).isLt⟩ := by
  have h3 : (i 3).val < 128 := (i 3).isLt
  unfold val_main_v42 partner
  show concatenate S1x8192x32x128 3 (List.ofFn fun n : Fin 2 => (⟨S1x8192x32x64, pieces X W B n⟩ : (s : Shape) × (s.Idx → _))) _ i = _
  refine (concatenate_ofFn_apply (t := S1x8192x32x128) (s₁ := S1x8192x32x64) (3 : Fin 4) (pieces X W B) _ rfl 64 rfl i
    ⟨(i 3).val / 64, by omega⟩ rfl (half i ⟨(i 3).val % 64, by omega⟩) rfl (fun b hb => ?_)).trans ?_
  · match b with
    | ⟨0, _⟩ => rfl
    | ⟨1, _⟩ => rfl
    | ⟨2, _⟩ => rfl
    | ⟨3, _⟩ => exact absurd rfl hb
  · exact pieces_apply X W B i _ _

/-- THE FIRST RESULT of the reference is `qOut` of its arguments. -/
theorem result_eq : val_main_v45 (F := Ideal) X W B C S = qOut X W B C S := by
  funext i
  have ec : idx_main_v37 i = ix4 0 0 0 ⟨(i 3).val, (i 3).isLt⟩ := by
    funext a; apply Fin.ext
    match a with
    | ⟨0, _⟩ => rfl
    | ⟨1, _⟩ => rfl
    | ⟨2, _⟩ => rfl
    | ⟨3, _⟩ => rfl
  have es : idx_main_v43 i = ix4 0 0 0 ⟨(i 3).val, (i 3).isLt⟩ := by
    funext a; apply Fin.ext
    match a with
    | ⟨0, _⟩ => rfl
    | ⟨1, _⟩ => rfl
    | ⟨2, _⟩ => rfl
    | ⟨3, _⟩ => rfl
  rw [val_main_v45_apply, val_main_v38_apply, val_main_v44_apply, val_main_v37_apply, val_main_v43_apply, rotated_stage,
    ec, es]
  simp only [normed_stage, Ideal.addf_def, Ideal.mulf_def]
  rfl

end Cert.HeadRope.RefQuery

end
-- ==== Proof.RefKey.lean ====
/-
  The reference program's second result is `kOut` of its arguments, and its third is `vOut`.

  The reference slices the 1024 key columns (4096 … 5119) off the fused projection, views them as [1, 8192, 8, 128], and
  treats every key head as it treats a query head: root-mean-square normalisation, scale, shift, rotary embedding by
  concatenating the negated upper half with the lower half. Entry (0, r, h, d) of the result depends on row `r`, columns
  4096 + 128·h … 4096 + 128·h + 127, and on lane `d` and its partner lane of the key parameters and of the cosines and
  sines: `rope` of that head. The third result is the slice of columns 5120 … 6143, entry by entry.
-/
import proofs.«130383_j76587856822536_1_alg».proof.Proof.Gen.ReferenceIdeal.Read
import proofs.«130383_j76587856822536_1_alg».proof.Proof.RopeSpec

noncomputable section

namespace Cert.HeadRope.RefKey

open Cert.ReferenceIdeal Cert.ReferenceIdeal.Read Cert.HeadRope Idealize.ShloMosaic Idealize.ShloMosaic.ValueIdx

/-- The index of the [1, 8192, 8, 128] array that agrees with `i` except on the lane axis, where it is `d`. -/
abbrev lane (i : S1x8192x8x128.Idx) (d : Fin 128) : S1x8192x8x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨d.val, d.isLt⟩

/-- The index of a half-width [1, 8192, 8, 64] piece under `i`, at position `e` of the piece. -/
abbrev half (i : S1x8192x8x128.Idx) (e : Fin 64) : S1x8192x8x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨e.val, e.isLt⟩

variable (X : (⟨S8192x6144, .f32⟩ : BufTy).Contents (Elt Ideal)) (W B : (⟨S128, .f32⟩ : BufTy).Contents (Elt Ideal))
  (C S : (⟨S1x1x1x128, .f32⟩ : BufTy).Contents (Elt Ideal))

/-- The head a result index belongs to: row `i 1`, key head `i 2` of the fused projection. -/
abbrev headOf (i : S1x8192x8x128.Idx) : Fin 128 → EReal :=
  fun k => X (kAt ⟨(i 1).val, (i 1).isLt⟩ ⟨(i 2).val, (i 2).isLt⟩ k)

/-- The normalised, scaled and shifted keys (the stage before the rotary embedding) at an index: `normed` of the head. -/
theorem normed_stage (i : S1x8192x8x128.Idx) :
    val_main_v36 (F := Ideal) X W B i = normed (headOf X i) (fun k => W (ix1 k)) (fun k => B (ix1 k)) ⟨(i 3).val, (i 3).isLt⟩ := by
  have h0 : (i 0).val < 1 := (i 0).isLt
  have h1 : (i 1).val < 8192 := (i 1).isLt
  have h2 : (i 2).val < 8 := (i 2).isLt
  have h3 : (i 3).val < 128 := (i 3).isLt
  -- the entry itself: row i 1, column 128 · i 2 + i 3
  have ex : idx_main_v1 (idx_main_v4 i) = kAt ⟨(i 1).val, (i 1).isLt⟩ ⟨(i 2).val, (i 2).isLt⟩ ⟨(i 3).val, (i 3).isLt⟩ := by
    funext a; apply Fin.ext
    match a with
    | ⟨0, _⟩ => show ((((i 0).val * 8192 + (i 1).val) * 8 + (i 2).val) * 128 + (i 3).val) / 1024 = (i 1).val; omega
    | ⟨1, _⟩ => show 4096 + ((((i 0).val * 8192 + (i 1).val) * 8 + (i 2).val) * 128 + (i 3).val) % 1024 = 4096 + ((i 2).val * 128 + (i 3).val); omega
  -- the k-th summand of the head's sum of squares: row i 1, column 128 · i 2 + k
  have es : ∀ k : Fin 128, idx_main_v1 (idx_main_v4 (idx_main_v22 (idx_main_v23 (idx_main_v29 i)) k))
      = kAt ⟨(i 1).val, (i 1).isLt⟩ ⟨(i 2).val, (i 2).isLt⟩ k := by
    intro k
    have hk : k.val < 128 := k.isLt
    funext a; apply Fin.ext
    match a with
    | ⟨0, _⟩ => show (((0 * 8192 + (i 1).val) * 8 + (i 2).val) * 128 + k.val) / 1024 = (i 1).val; omega
    | ⟨1, _⟩ => show 4096 + (((0 * 8192 + (i 1).val) * 8 + (i 2).val) * 128 + k.val) % 1024 = 4096 + ((i 2).val * 128 + k.val); omega
  have ew : idx_main_v31 (idx_main_v32 i) = ix1 ⟨(i 3).val, (i 3).isLt⟩ := by
    funext a; apply Fin.ext
    match a with
    | ⟨0, _⟩ => rfl
  have eb : idx_main_v34 (idx_main_v35 i) = ix1 ⟨(i 3).val, (i 3).isLt⟩ := by
    funext a; apply Fin.ext
    match a with
    | ⟨0, _⟩ => rfl
  simp only [val_main_v36_apply, val_main_v33_apply, val_main_v30_apply, val_main_v29_apply, val_main_v28_apply,
    val_main_v27_apply, val_main_v25_apply, val_main_v23_apply, val_main_v22_apply, val_main_v21_apply, val_main_v4_apply,
    val_main_v1_apply, val_main_v24_apply, val_main_cst_3_apply, val_main_v26_apply, val_main_cst_4_apply, val_main_cst_2_apply,
    val_main_v32_apply, val_main_v31_apply, val_main_v35_apply, val_main_v34_apply, ex, es, ew, eb,
    Ideal.addf_def, Ideal.mulf_def, Ideal.hostDivf_def, Ideal.hostUnary_rsqrt_def, Ideal.ofBits_def, zero_add_eq]
  rfl

/-- The two pieces the reference concatenates along the lane axis: the negated upper half of every head, then its lower half. -/
abbrev pieces : Fin 2 → (S1x8192x8x64.Idx → Elt Ideal .f32) := fun n => match n with
  | ⟨0, _⟩ => val_main_v50 (F := Ideal) X W B
  | ⟨1, _⟩ => val_main_v48 (F := Ideal) X W B

/-- Piece `n` at position `e` under `i` is half `n` of the normalised head `i` belongs to. -/
theorem pieces_apply (i : S1x8192x8x128.Idx) (n : Fin 2) (e : Fin 64) :
    pieces X W B n (half i e) = halves (fun d => val_main_v36 (F := Ideal) X W B (lane i d)) n e := by
  have he : e.val < 64 := e.isLt
  match n with
  | ⟨0, _⟩ =>
    have e40 : idx_main_v49 (half i e) = lane i ⟨64 + e.val, by omega⟩ := by
      funext a; apply Fin.ext
      match a with
      | ⟨0, _⟩ => rfl
      | ⟨1, _⟩ => rfl
      | ⟨2, _⟩ => rfl
      | ⟨3, _⟩ => rfl
    show val_main_v50 (F := Ideal) X W B (half i e) = -(val_main_v36 (F := Ideal) X W B (lane i ⟨64 + e.val, _⟩))
    rw [val_main_v50_apply, val_main_v49_apply, Ideal.hostNegf_def, Ideal.negf_def, e40]
  | ⟨1, _⟩ =>
    have e39 : idx_main_v48 (half i e) = lane i ⟨e.val, by omega⟩ := by
      funext a; apply Fin.ext
      match a with
      | ⟨0, _⟩ => rfl
      | ⟨1, _⟩ => rfl
      | ⟨2, _⟩ => rfl
      | ⟨3, _⟩ => rfl
    show val_main_v48 (F := Ideal) X W B (half i e) = val_main_v36 (F := Ideal) X W B (lane i ⟨e.val, _⟩)
    rw [val_main_v48_apply, e39]

/-- The concatenated stage at `i`: the rotate-half partner of lane `i 3` in the normalised head `i` belongs to. -/
theorem rotated_stage (i : S1x8192x8x128.Idx) :
    val_main_v51 (F := Ideal) X W B i
      = partner (fun d => val_main_v36 (F := Ideal) X W B (lane i d)) ⟨(i 3).val, (i 3).isLt⟩ := by
  have h3 : (i 3).val < 128 := (i 3).isLt
  unfold val_main_v51 partner
  show concatenate S1x8192x8x128 3 (List.ofFn fun n : Fin 2 => (⟨S1x8192x8x64, pieces X W B n⟩ : (s : Shape) × (s.Idx → _))) _ i = _
  refine (concatenate_ofFn_apply (t := S1x8192x8x128) (s₁ := S1x8192x8x64) (3 : Fin 4) (pieces X W B) _ rfl 64 rfl i
    ⟨(i 3).val / 64, by omega⟩ rfl (half i ⟨(i 3).val % 64, by omega⟩) rfl (fun b hb => ?_)).trans ?_
  · match b with
    | ⟨0, _⟩ => rfl
    | ⟨1, _⟩ => rfl
    | ⟨2, _⟩ => rfl
    | ⟨3, _⟩ => exact absurd rfl hb
  · exact pieces_apply X W B i _ _

/-- THE SECOND RESULT of the reference is `kOut` of its arguments. -/
theorem result_eq : val_main_v54 (F := Ideal) X W B C S = kOut X W B C S := by
  funext i
  have ec : idx_main_v46 i = ix4 0 0 0 ⟨(i 3).val, (i 3).isLt⟩ := by
    funext a; apply Fin.ext
    match a with
    | ⟨0, _⟩ => rfl
    | ⟨1, _⟩ => rfl
    | ⟨2, _⟩ => rfl
    | ⟨3, _⟩ => rfl
  have es : idx_main_v52 i = ix4 0 0 0 ⟨(i 3).val, (i 3).isLt⟩ := by
    funext a; apply Fin.ext
    match a with
    | ⟨0, _⟩ => rfl
    | ⟨1, _⟩ => rfl
    | ⟨2, _⟩ => rfl
    | ⟨3, _⟩ => rfl
  rw [val_main_v54_apply, val_main_v47_apply, val_main_v53_apply, val_main_v46_apply, val_main_v52_apply, rotated_stage,
    ec, es]
  simp only [normed_stage, Ideal.addf_def, Ideal.mulf_def]
  rfl

/-- THE THIRD RESULT of the reference, the slice of the value columns, is `vOut` of the fused projection. -/
theorem values_eq : val_main_v2 (F := Ideal) X = vOut X := by
  funext i
  have ev : idx_main_v2 i = vAt ⟨(i 0).val, (i 0).isLt⟩ ⟨(i 1).val, (i 1).isLt⟩ := by
    funext a; apply Fin.ext
    match a with
    | ⟨0, _⟩ => rfl
    | ⟨1, _⟩ => rfl
  rw [val_main_v2_apply, ev]
  rfl

end Cert.HeadRope.RefKey

end
-- ==== Proof.lean ====
/-
  The kernel — per-head root-mean-square normalisation with scale and shift of the query and key heads of a fused
  projection, followed by the rotary embedding in rotate-half form, and a copy of the value columns — against its
  plain reference, over the extended reals.

  Both programs compute, for every row and every head `x` of that row,

      n d = x d · (Σₖ x k · x k / 128 + ε)^(-1/2) · w d + b d,        out d = n d · cos d + n̂ d · sin d,

  where n̂ is the concatenation of −n on the upper 64 lanes and n on the lower 64 lanes (`Proof/RopeSpec.lean`: `normed`,
  `partner`, `rope`; the result arrays `qOut`, `kOut`, `vOut`). The kernel does it block by block — 128 rows per grid
  point, the head axis unfolded from the columns, the lane sum a vector reduction, zero minus the upper half where the
  reference negates — and the reference on the whole arrays. No algebraic law beyond `0 − x = −x` and `0 + s = s` is
  needed to join them, and none that fails at an infinity: the proof never opens the finiteness precondition.

  • `Proof/RefQuery.lean`, `Proof/RefKey.lean`: the reference's three results are `qOut`, `kOut`, `vOut` of its arguments.
  • `Proof/KernelQuery.lean`, `Proof/KernelKey.lean`: the kernel's stored payloads, read at a block index, are `rope` of the
    block's head.
  • `Proof/InputBlocks.lean`: what each input window's block holds in terms of the argument arrays.
  • `Proof/KernelValue.lean`: every grid point writes back a block of `qOut` / `kOut` / `vOut`; the blocks tile the arrays;
    hence the kernel's run ends with the three arrays at those functions of the arguments.
  The frames are the generated frame certificates; the idealization changed no operation, so `preserves` asks nothing.
-/
import proofs.«130383_j76587856822536_1_alg».proof.Defs
import proofs.«130383_j76587856822536_1_alg».proof.Proof.Gen.Kernel
import proofs.«130383_j76587856822536_1_alg».proof.Proof.Gen.Kernel.Skeleton
import proofs.«130383_j76587856822536_1_alg».proof.Proof.Gen.Kernel.Launch
import proofs.«130383_j76587856822536_1_alg».proof.Proof.Gen.Kernel.Points
import proofs.«130383_j76587856822536_1_alg».proof.Proof.Gen.Kernel.Frame
import proofs.«130383_j76587856822536_1_alg».proof.Proof.Gen.KernelIdeal
import proofs.«130383_j76587856822536_1_alg».proof.Proof.Gen.KernelIdeal.Skeleton
import proofs.«130383_j76587856822536_1_alg».proof.Proof.Gen.KernelIdeal.Launch
import proofs.«130383_j76587856822536_1_alg».proof.Proof.Gen.KernelIdeal.Points
import proofs.«130383_j76587856822536_1_alg».proof.Proof.Gen.KernelIdeal.Frame
import proofs.«130383_j76587856822536_1_alg».proof.Proof.Gen.ReferenceIdeal
import proofs.«130383_j76587856822536_1_alg».proof.Proof.Gen.Pre_finite_inputs
import proofs.«130383_j76587856822536_1_alg».proof.Proof.Gen.ReferenceIdeal.Run
import proofs.«130383_j76587856822536_1_alg».proof.Proof.Gen.ReferenceIdeal.Read
import proofs.«130383_j76587856822536_1_alg».proof.Proof.KernelValue
import proofs.«130383_j76587856822536_1_alg».proof.Proof.RefQuery
import proofs.«130383_j76587856822536_1_alg».proof.Proof.RefKey
import Idealize.ShloMosaic.Adequacy
import Idealize.ShloMosaic.Init

noncomputable section

namespace Cert.Proof

open Idealize.ShloMosaic Idealize.SL.Sem Cert.HeadRope

/-- The word-level kernel runs and leaves its arguments as they were: the generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its generated run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the seven arguments both programs end with the rotated queries at `qOut`, the rotated keys at
    `kOut` and the values at `vOut` of those arguments: the kernel by its run read block by block, the reference by its run
    read stage by stage. -/
theorem algebraic : Cert.algebraic_KernelIdeal_ReferenceIdeal := by
  intro m ρ m' ρ' _ hagree
  refine ⟨_, _, _, Cert.HeadRope.KernelValue.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  obtain ⟨hq, hk, hv, hrest⟩ := h c
  refine ⟨?_, ?_, ?_, hrest⟩
  · rw [hq, Cert.ReferenceIdeal.Read.val_main_v45_eq, Cert.HeadRope.RefQuery.result_eq, a0, a1, a3, a5, a6]
  · rw [hk, Cert.ReferenceIdeal.Read.val_main_v54_eq, Cert.HeadRope.RefKey.result_eq, a0, a2, a4, a5, a6]
  · rw [hv, Cert.ReferenceIdeal.Read.val_main_v2_eq, Cert.HeadRope.RefKey.values_eq, a0]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
